-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x1 : Shape := ⟨2, ![1000000, 1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_

variable [Facts]

def fn {F : FTy → Type} [FloatOps F] (main_arg0 : FVec F S1000000x64 .f32) (main_arg1 : IVec S1000000x64 32) (main_arg2 : IVec S1000000x1 32) (main_arg3 : FVec F S1000000x1 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x1 .f32 := Host.absf main_arg3
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  main_v8
-- ==== Kernel.lean ====
abbrev S1000000x64 : Shape := ⟨2, ![1000000, 64]⟩
abbrev S1000000x1 : Shape := ⟨2, ![1000000, 1]⟩
abbrev S_ : Shape := ⟨0, ![]⟩
abbrev S1000000x64x1 : Shape := ⟨3, ![1000000, 64, 1]⟩
abbrev S1000000x64x2 : Shape := ⟨3, ![1000000, 64, 2]⟩
abbrev S2x1x1 : Shape := ⟨3, ![2, 1, 1]⟩
abbrev S10000x64 : Shape := ⟨2, ![10000, 64]⟩
abbrev S10000x1 : Shape := ⟨2, ![10000, 1]⟩
abbrev S1x1x1 : Shape := ⟨3, ![1, 1, 1]⟩
abbrev S1x1 : Shape := ⟨2, ![1, 1]⟩
abbrev S10000 : Shape := ⟨1, ![10000]⟩
abbrev S1 : Shape := ⟨1, ![1]⟩

abbrev nBuf : Space → Nat
  | .hbm => 46
  | .vmem => 14
  | .smem => 0
  | _ => 0

abbrev bufTy : (tb : Table) → Fin (tcTables nBuf tb) → BufTy
  | .hbm, ⟨0, _⟩ => ⟨S1000000x64, .f32⟩
  | .hbm, ⟨1, _⟩ => ⟨S1000000x64, .i32⟩
  | .hbm, ⟨2, _⟩ => ⟨S1000000x1, .i32⟩
  | .hbm, ⟨3, _⟩ => ⟨S1000000x1, .f32⟩
  | .hbm, ⟨4, _⟩ => ⟨S_, .i32⟩
  | .hbm, ⟨5, _⟩ => ⟨S1000000x64, .i32⟩
  | .hbm, ⟨6, _⟩ => ⟨S1000000x64, .i32⟩
  | .hbm, ⟨7, _⟩ => ⟨S_, .i32⟩
  | .hbm, ⟨8, _⟩ => ⟨S1000000x64, .i32⟩
  | .hbm, ⟨9, _⟩ => ⟨S1000000x64, .i1⟩
  | .hbm, ⟨10, _⟩ => ⟨S_, .i32⟩
  | .hbm, ⟨11, _⟩ => ⟨S1000000x64, .i32⟩
  | .hbm, ⟨12, _⟩ => ⟨S1000000x64, .i1⟩
  | .hbm, ⟨13, _⟩ => ⟨S_, .i32⟩
  | .hbm, ⟨14, _⟩ => ⟨S1000000x64, .i32⟩
  | .hbm, ⟨15, _⟩ => ⟨S1000000x64, .i32⟩
  | .hbm, ⟨16, _⟩ => ⟨S1000000x64, .i32⟩
  | .hbm, ⟨17, _⟩ => ⟨S_, .i32⟩
  | .hbm, ⟨18, _⟩ => ⟨S1000000x64, .i32⟩
  | .hbm, ⟨19, _⟩ => ⟨S1000000x64, .i32⟩
  | .hbm, ⟨20, _⟩ => ⟨S1000000x64x1, .i32⟩
  | .hbm, ⟨21, _⟩ => ⟨S1000000x64x1, .i32⟩
  | .hbm, ⟨22, _⟩ => ⟨S1000000x64x2, .i32⟩
  | .hbm, ⟨23, _⟩ => ⟨S1000000x64, .i32⟩
  | .hbm, ⟨24, _⟩ => ⟨S_, .i32⟩
  | .hbm, ⟨25, _⟩ => ⟨S_, .i32⟩
  | .hbm, ⟨26, _⟩ => ⟨S1000000x64, .i32⟩
  | .hbm, ⟨27, _⟩ => ⟨S1000000x64, .i32⟩
  | .hbm, ⟨28, _⟩ => ⟨S2x1x1, .f32⟩
  | .hbm, ⟨29, _⟩ => ⟨S2x1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .local _ .vmem, ⟨0, _⟩ => ⟨S10000x64, .f32⟩
  | .local _ .vmem, ⟨1, _⟩ => ⟨S10000x64, .f32⟩
  | .local _ .vmem, ⟨2, _⟩ => ⟨S10000x64, .i32⟩
  | .local _ .vmem, ⟨3, _⟩ => ⟨S10000x64, .i32⟩
  | .local _ .vmem, ⟨4, _⟩ => ⟨S10000x64, .i32⟩
  | .local _ .vmem, ⟨5, _⟩ => ⟨S10000x64, .i32⟩
  | .local _ .vmem, ⟨6, _⟩ => ⟨S10000x1, .i32⟩
  | .local _ .vmem, ⟨7, _⟩ => ⟨S10000x1, .i32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | .local _ .vmem, ⟨13, _⟩ => ⟨S1x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_cst : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_call1_v0 : Ref sig .tc := ⟨.hbm, 39, rfl⟩
abbrev main_v21 : Ref sig .tc := ⟨.hbm, 40, rfl⟩
abbrev main_v22 : Ref sig .tc := ⟨.hbm, 41, rfl⟩
abbrev main_cst_9 : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v90 : BitVec 1 := Scalar.cmpi .eq arg1 c49_i32
  let v91 : BitVec 32 := Scalar.extui v90
  let c0_i32_40 : BitVec 32 := 0#32
  let v92 : BitVec 1 := Scalar.cmpi .ne v91 c0_i32_40
  v92

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10000x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S10000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S1000000x64 : S_.BroadcastsInDim S1000000x64 (![] : Fin 0 → Fin S1000000x64.rank)
  bcast_S1000000x64_S1000000x64x1_0_1 : S1000000x64.BroadcastsInDim S1000000x64x1 (![0, 1] : Fin 2 → Fin S1000000x64x1.rank)
  concatenates_S1000000x64x1_S1000000x64x1_S1000000x64x2_d2 : Shape.Concatenates [S1000000x64x1, S1000000x64x1] S1000000x64x2 2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  natLt_1_32 : 1 < 32
  slices_S10000x64_o0_0_S10000x1 : S10000x64.Slices ![0, 0] S10000x1
  broadcasts_S10000x1_S10000x64 : S10000x1.Broadcasts S10000x64
  reduces_S10000x64_S10000 : S10000x64.Reduces [1] S10000
  shapeCasts_S10000_S10000x1 : S10000.ShapeCasts S10000x1
  reduces_S10000x1_S1 : S10000x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  bcast_S_S1 : S_.BroadcastsInDim S1 (![] : Fin 0 → Fin S1.rank)
  gather_S1000000x1_S1000000x64x2_S1000000x64_n_01_n_n_01_2_11_wf : GatherDims.WF S1000000x1 S1000000x64x2 S1000000x64 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .i32 = 32 ∨ (Rect.block (s := S1000000x64) S10000x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1000000x64.size a
  hwx0_2 : ∀ i : grid0.Coords, EltTy.bits .i32 = 32 ∨ (Rect.block (s := S1000000x64) S10000x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S1000000x1.size a
  hwx0_3 : ∀ i : grid0.Coords, EltTy.bits .i32 = 32 ∨ (Rect.block (s := S1000000x1) S10000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def gather_S1000000x1_S1000000x64x2_S1000000x64_n_01_n_n_01_2_11 : GatherDims S1000000x1 S1000000x64x2 S1000000x64 where
  offsetDims := []
  collapsedSliceDims := [0, 1]
  operandBatchingDims := []
  startIndicesBatchingDims := []
  startIndexMap := [0, 1]
  indexVectorDim := 2
  sliceSizes := ![1, 1]
  wf := gather_S1000000x1_S1000000x64x2_S1000000x64_n_01_n_n_01_2_11_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1000000x64 : Shape := ⟨2, ![1000000, 64]⟩
abbrev S1000000x1 : Shape := ⟨2, ![1000000, 1]⟩
abbrev S_ : Shape := ⟨0, ![]⟩
abbrev S1000000x64x1 : Shape := ⟨3, ![1000000, 64, 1]⟩
abbrev S1000000x64x2 : Shape := ⟨3, ![1000000, 64, 2]⟩
abbrev S1000000 : Shape := ⟨1, ![1000000]⟩
abbrev S1 : Shape := ⟨1, ![1]⟩

abbrev nBuf : Space → Nat
  | .hbm => 129
  | .vmem => 0
  | .smem => 0
  | _ => 0

abbrev hbmTy0_0 (i : Nat) : BufTy := match i % 128 with
  | 0 => ⟨S1000000x64, .f32⟩
  | 1 => ⟨S1000000x64, .i32⟩
  | 2 => ⟨S1000000x1, .i32⟩
  | 3 => ⟨S1000000x1, .f32⟩
  | 4 => ⟨S_, .i32⟩
  | 5 => ⟨S1000000x64, .i32⟩
  | 6 => ⟨S1000000x64, .i32⟩
  | 7 => ⟨S_, .i32⟩
  | 8 => ⟨S1000000x64, .i32⟩
  | 9 => ⟨S1000000x64, .i1⟩
  | 10 => ⟨S_, .i32⟩
  | 11 => ⟨S1000000x64, .i32⟩
  | 12 => ⟨S1000000x64, .i1⟩
  | 13 => ⟨S_, .i32⟩
  | 14 => ⟨S1000000x64, .i32⟩
  | 15 => ⟨S1000000x64, .i32⟩
  | 16 => ⟨S1000000x64, .i32⟩
  | 17 => ⟨S_, .i32⟩
  | 18 => ⟨S1000000x64, .i32⟩
  | 19 => ⟨S1000000x64, .i32⟩
  | 20 => ⟨S1000000x64x1, .i32⟩
  | 21 => ⟨S1000000x64x1, .i32⟩
  | 22 => ⟨S1000000x64x2, .i32⟩
  | 23 => ⟨S1000000x64, .i32⟩
  | 24 => ⟨S_, .i32⟩
  | 25 => ⟨S_, .i32⟩
  | 26 => ⟨S1000000x64, .i32⟩
  | 27 => ⟨S1000000x64, .i32⟩
  | 28 => ⟨S1000000x64, .f32⟩
  | 29 => ⟨S1000000, .i32⟩
  | 30 => ⟨S_, .i32⟩
  | 31 => ⟨S1000000, .i32⟩
  | 32 => ⟨S1000000, .i1⟩
  | 33 => ⟨S1000000, .f32⟩
  | 34 => ⟨S_, .i32⟩
  | 35 => ⟨S1000000x64, .i32⟩
  | 36 => ⟨S1000000x64, .i1⟩
  | 37 => ⟨S_, .f32⟩
  | 38 => ⟨S_, .f32⟩
  | 39 => ⟨S1000000x64, .f32⟩
  | 40 => ⟨S1000000x64, .f32⟩
  | 41 => ⟨S1000000x64, .f32⟩
  | 42 => ⟨S_, .f32⟩
  | 43 => ⟨S1000000x64, .f32⟩
  | 44 => ⟨S1000000x64, .f32⟩
  | 45 => ⟨S_, .f32⟩
  | 46 => ⟨S1000000x64, .f32⟩
  | 47 => ⟨S1000000x64, .f32⟩
  | 48 => ⟨S1000000x64, .f32⟩
  | 49 => ⟨S1000000x1, .i32⟩
  | 50 => ⟨S1000000x64, .i32⟩
  | 51 => ⟨S1000000x64, .i1⟩
  | 52 => ⟨S1000000x64, .f32⟩
  | 53 => ⟨S1000000x64, .f32⟩
  | 54 => ⟨S_, .f32⟩
  | 55 => ⟨S1000000x64, .f32⟩
  | 56 => ⟨S1000000x64, .f32⟩
  | 57 => ⟨S1000000x64, .f32⟩
  | 58 => ⟨S_, .f32⟩
  | 59 => ⟨S1000000x64, .f32⟩
  | 60 => ⟨S1000000x64, .f32⟩
  | 61 => ⟨S_, .f32⟩
  | 62 => ⟨S1000000x64, .f32⟩
  | 63 => ⟨S1000000x64, .f32⟩
  | 64 => ⟨S1000000x64, .f32⟩
  | 65 => ⟨S1000000x64, .f32⟩
  | 66 => ⟨S1000000x64, .f32⟩
  | 67 => ⟨S1000000x64, .f32⟩
  | 68 => ⟨S1000000x64, .f32⟩
  | 69 => ⟨S1000000x64, .f32⟩
  | 70 => ⟨S1000000x64, .f32⟩
  | 71 => ⟨S_, .f32⟩
  | 72 => ⟨S1000000, .f32⟩
  | 73 => ⟨S_, .f32⟩
  | 74 => ⟨S1000000, .f32⟩
  | 75 => ⟨S_, .f32⟩
  | 76 => ⟨S1000000, .f32⟩
  | 77 => ⟨S1000000, .f32⟩
  | 78 => ⟨S_, .f32⟩
  | 79 => ⟨S1000000, .f32⟩
  | 80 => ⟨S1000000, .i1⟩
  | 81 => ⟨S_, .f32⟩
  | 82 => ⟨S1000000, .f32⟩
  | 83 => ⟨S1000000, .i1⟩
  | 84 => ⟨S_, .f32⟩
  | 85 => ⟨S_, .f32⟩
  | 86 => ⟨S1000000, .f32⟩
  | 87 => ⟨S1000000, .f32⟩
  | 88 => ⟨S1000000, .f32⟩
  | 89 => ⟨S_, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .i1⟩
  | 99 => ⟨S_, .f32⟩
  | 100 => ⟨S1000000, .f32⟩
  | 101 => ⟨S1000000, .i1⟩
  | 102 => ⟨S_, .f32⟩
  | 103 => ⟨S_, .f32⟩
  | 104 => ⟨S1000000, .f32⟩
  | 105 => ⟨S1000000, .f32⟩
  | 106 => ⟨S1000000, .f32⟩
  | 107 => ⟨S_, .f32⟩
  | 108 => ⟨S_, .f32⟩
  | 109 => ⟨S1000000, .f32⟩
  | 110 => ⟨S1000000, .f32⟩
  | 111 => ⟨S1000000, .f32⟩
  | 112 => ⟨S1000000, .f32⟩
  | 113 => ⟨S_, .f32⟩
  | 114 => ⟨S_, .f32⟩
  | 115 => ⟨S_, .f32⟩
  | 116 => ⟨S_, .f32⟩
  | 117 => ⟨S_, .f32⟩
  | 118 => ⟨S_, .i1⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1000000x64, .f32⟩

abbrev hbmTy0_1 (i : Nat) : BufTy := match i % 128 with
  | 0 => ⟨S1, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_v57 : Ref sig .tc := ⟨.hbm, 88, rfl⟩
abbrev main_cst_19 : Ref sig .tc := ⟨.hbm, 89, rfl⟩
abbrev main_call3_v0 : Ref sig .tc := ⟨.hbm, 90, rfl⟩
abbrev main_call3_v1 : Ref sig .tc := ⟨.hbm, 91, rfl⟩
abbrev main_v58 : Ref sig .tc := ⟨.hbm, 92, rfl⟩
abbrev main_cst_20 : Ref sig .tc := ⟨.hbm, 93, rfl⟩
abbrev main_v59 : Ref sig .tc := ⟨.hbm, 94, rfl⟩
abbrev main_v60 : Ref sig .tc := ⟨.hbm, 95, rfl⟩
abbrev main_cst_21 : Ref sig .tc := ⟨.hbm, 96, rfl⟩
abbrev main_v61 : Ref sig .tc := ⟨.hbm, 97, rfl⟩
abbrev main_v62 : Ref sig .tc := ⟨.hbm, 98, rfl⟩
abbrev main_cst_22 : Ref sig .tc := ⟨.hbm, 99, rfl⟩
abbrev main_v63 : Ref sig .tc := ⟨.hbm, 100, rfl⟩
abbrev main_v64 : Ref sig .tc := ⟨.hbm, 101, rfl⟩
abbrev main_cst_23 : Ref sig .tc := ⟨.hbm, 102, rfl⟩
abbrev main_call4_v0 : Ref sig .tc := ⟨.hbm, 103, rfl⟩
abbrev main_call4_v1 : Ref sig .tc := ⟨.hbm, 104, rfl⟩
abbrev main_v65 : Ref sig .tc := ⟨.hbm, 105, rfl⟩
abbrev main_v66 : Ref sig .tc := ⟨.hbm, 106, rfl⟩
abbrev main_cst_24 : Ref sig .tc := ⟨.hbm, 107, rfl⟩
abbrev main_call5_v0 : Ref sig .tc := ⟨.hbm, 108, rfl⟩
abbrev main_call5_v1 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_25 : Ref sig .tc := ⟨.hbm, 113, rfl⟩
abbrev main_v70 : Ref sig .tc := ⟨.hbm, 114, rfl⟩
abbrev main_cst_26 : Ref sig .tc := ⟨.hbm, 115, rfl⟩
abbrev main_v71 : Ref sig .tc := ⟨.hbm, 116, rfl⟩
abbrev main_cst_27 : Ref sig .tc := ⟨.hbm, 117, rfl⟩
abbrev main_v72 : Ref sig .tc := ⟨.hbm, 118, rfl⟩
abbrev main_cst_28 : Ref sig .tc := ⟨.hbm, 119, rfl⟩
abbrev main_v73 : Ref sig .tc := ⟨.hbm, 120, rfl⟩
abbrev main_cst_29 : Ref sig .tc := ⟨.hbm, 121, rfl⟩
abbrev main_call6_v0 : Ref sig .tc := ⟨.hbm, 122, rfl⟩
abbrev main_v74 : Ref sig .tc := ⟨.hbm, 123, rfl⟩
abbrev main_v75 : Ref sig .tc := ⟨.hbm, 124, rfl⟩
abbrev main_cst_30 : Ref sig .tc := ⟨.hbm, 125, rfl⟩
abbrev main_call7_v0 : Ref sig .tc := ⟨.hbm, 126, rfl⟩
abbrev main_v76 : Ref sig .tc := ⟨.hbm, 127, rfl⟩
abbrev main_v77 : Ref sig .tc := ⟨.hbm, 128, rfl⟩

abbrev nD : Nat := 1
abbrev τ : Topo := Topo.v7x

variable {F : FTy → Type} [FloatOps F]

class Facts₀ : Prop where
  bcast_S_S1000000x64 : S_.BroadcastsInDim S1000000x64 (![] : Fin 0 → Fin S1000000x64.rank)
  bcast_S1000000x64_S1000000x64x1_0_1 : S1000000x64.BroadcastsInDim S1000000x64x1 (![0, 1] : Fin 2 → Fin S1000000x64x1.rank)
  concatenates_S1000000x64x1_S1000000x64x1_S1000000x64x2_d2 : Shape.Concatenates [S1000000x64x1, S1000000x64x1] S1000000x64x2 2
  shapeCasts_S1000000x1_S1000000 : S1000000x1.ShapeCasts S1000000
  bcast_S_S1000000 : S_.BroadcastsInDim S1000000 (![] : Fin 0 → Fin S1000000.rank)
  slices_S1000000x64_S1000000x1_0_0 : S1000000x64.Slices ![0, 0] S1000000x1
  bcast_S1000000x1_S1000000x64_0_1 : S1000000x1.BroadcastsInDim S1000000x64 (![0, 1] : Fin 2 → Fin S1000000x64.rank)
  reducesTo_S1000000x64_S1000000_d1 : S1000000x64.ReducesTo [1] S1000000
  h_S_ : 0 < S_.numel
  reducesTo_S1000000_S_d0 : S1000000.ReducesTo [0] S_
  bcast_S_S1 : S_.BroadcastsInDim S1 (![] : Fin 0 → Fin S1.rank)
  gather_S1000000x1_S1000000x64x2_S1000000x64_n_01_n_n_01_2_11_wf : GatherDims.WF S1000000x1 S1000000x64x2 S1000000x64 [] [0, 1] [] [0, 1] [] 2 ![1, 1]

variable [Facts₀]

def gather_S1000000x1_S1000000x64x2_S1000000x64_n_01_n_n_01_2_11 : GatherDims S1000000x1 S1000000x64x2 S1000000x64 where
  offsetDims := []
  collapsedSliceDims := [0, 1]
  operandBatchingDims := []
  startIndicesBatchingDims := []
  startIndexMap := [0, 1]
  indexVectorDim := 2
  sliceSizes := ![1, 1]
  wf := gather_S1000000x1_S1000000x64x2_S1000000x64_n_01_n_n_01_2_11_wf

class Facts : Prop extends Facts₀ where

variable [Facts]
-- ==== Proof.RowSpec.lean ====
/-
  One probe row of the loss, as a function of the row's 64 squared distances, its 64 neighbour indices, the 64
  cluster ids selected for those neighbours and the probe's own cluster id, over the extended reals.

  A neighbour slot is valid when its index is non-negative.  Slot k is "same as the probe" when its selected id
  equals the id in slot 0.  The attractive term of a slot is log(e·d + 1) on valid same-cluster slots, the
  repulsive term exp(-d) on valid other-cluster slots, weighted by 1 for a non-noise neighbour and by the
  small constant for a noise neighbour.  Each of the two sums over the row is divided by the number of slots it
  ranges over, a division that answers 0 when that number is 0, and the row contributes only when the probe is
  not noise.  The float literals stay as their binary words; only the zero word is ever evaluated.
-/
import Idealize.ShloMosaic.PureOps.Ideal
import Idealize.ShloMosaic.PureOps.Ideal.Laws
import Idealize.ShloMosaic.Lib.ValueIdx

noncomputable section

namespace Cert.RowSpec

open Idealize.ShloMosaic

/-- The float words the two programs share. -/
abbrev zeroF : EReal := Ideal.ofBits .f32 0x00000000#32
abbrev oneF : EReal := Ideal.ofBits .f32 0x3F800000#32
abbrev smallF : EReal := Ideal.ofBits .f32 0x3C23D70A#32
abbrev eF : EReal := Ideal.ofBits .f32 0x402DF854#32

/-- A one-bit word as the real 0 or 1. -/
def bit (b : BitVec 1) : EReal := ((b.toNat : ℝ) : EReal)

/-- Reading a one-bit word as a signed 32-bit integer after zero extension gives the same 0 or 1. -/
theorem sitofp_setWidth (b : BitVec 1) : (((b.setWidth 32).toInt : ℝ) : EReal) = bit b := by
  have h : ∀ b : BitVec 1, (b.setWidth 32).toInt = (b.toNat : Int) := by decide
  unfold bit
  rw [h b]
  norm_cast

/-- Slot validity: the neighbour index is non-negative. -/
def valid (n : BitVec 32) : EReal := bit (IntOp.cmpi .sge n 0#32)

/-- 0 for a noise neighbour (negative id), 1 otherwise. -/
def notNoise (s : BitVec 32) : EReal := Scalar.select (IntOp.cmpi .slt s 0#32) zeroF oneF

/-- The weight of a neighbour: 1 when it is not noise, the small constant when it is. -/
def weight (s : BitVec 32) : EReal := notNoise s + (oneF - notNoise s) * smallF

/-- 1 when the slot's id equals the probe slot's id. -/
def same (s0 s : BitVec 32) : EReal := bit (IntOp.cmpi .eq s0 s)

def attMask (n s0 s : BitVec 32) : EReal := same s0 s * valid n
def repMask (n s0 s : BitVec 32) : EReal := (oneF - same s0 s) * valid n
def attTerm (d : EReal) (n s0 s : BitVec 32) : EReal := Ideal.log (eF * d + oneF) * attMask n s0 s
def repTerm (d : EReal) (n s0 s : BitVec 32) : EReal := Ideal.exp (-d) * repMask n s0 s * weight s

/-- Division that answers 0 when the divisor is 0. -/
def divNoNan (num den : EReal) : EReal :=
  Scalar.select (FloatOps.cmpf (F := Ideal) (φ := .f32) .oeq den zeroF) zeroF
    (Ideal.div num (Scalar.select (FloatOps.cmpf (F := Ideal) (φ := .f32) .oeq den zeroF) oneF den))

/-- The row's contribution to the numerator. -/
def rowVal (d : Fin 64 → EReal) (n s : Fin 64 → BitVec 32) (tid : BitVec 32) : EReal :=
  valid tid *
    (divNoNan (valid tid * ∑ k : Fin 64, attTerm (d k) (n k) (s 0) (s k)) (∑ k : Fin 64, attMask (n k) (s 0) (s k))
      + divNoNan (valid tid * ∑ k : Fin 64, repTerm (d k) (n k) (s 0) (s k)) (∑ k : Fin 64, repMask (n k) (s 0) (s k)))

/-- The zero word denotes 0, so adding it on the left changes nothing. -/
theorem zeroF_add (x : EReal) : zeroF + x = x := by
  show Ideal.ofBits .f32 0x00000000#32 + x = x
  rw [Ideal.ofBits_zero_f32, zero_add]

theorem zeroF_sub (x : EReal) : zeroF - x = -x := by
  show Ideal.ofBits .f32 0x00000000#32 - x = -x
  rw [Ideal.ofBits_zero_f32, zero_sub]

end Cert.RowSpec

end
-- ==== Proof.RefRow.lean ====
import proofs.«123577_j5428838662735_1_alg».proof.Proof.RefStages
import proofs.«123577_j5428838662735_1_alg».proof.Proof.RowSpec

/-! The reference's per-row value, read off its operations one at a time: row `R` of the array it sums at the
end is the row function of `RowSpec` of row `R` of the distances, of the neighbour indices, of the selected ids, and
of the probe's own id. -/

noncomputable section
open Idealize.ShloMosaic Idealize.ShloMosaic.ValueIdx Cert.RowSpec
namespace Cert.ReferenceIdeal.Row
open Cert.ReferenceIdeal Cert.ReferenceIdeal.ReadP

theorem idx48 (R : Fin 1000000) (k : Fin 64) : idx_main_v48 (ix1 R) k = ix2 R k :=
  funext fun a => Fin.ext (by match a with | ⟨0, _⟩ => rfl | ⟨1, _⟩ => rfl)
theorem idx49 (R : Fin 1000000) (k : Fin 64) : idx_main_v49 (ix1 R) k = ix2 R k :=
  funext fun a => Fin.ext (by match a with | ⟨0, _⟩ => rfl | ⟨1, _⟩ => rfl)
theorem idx50 (R : Fin 1000000) (k : Fin 64) : idx_main_v50 (ix1 R) k = ix2 R k :=
  funext fun a => Fin.ext (by match a with | ⟨0, _⟩ => rfl | ⟨1, _⟩ => rfl)
theorem idx59 (R : Fin 1000000) (k : Fin 64) : idx_main_v59 (ix1 R) k = ix2 R k :=
  funext fun a => Fin.ext (by match a with | ⟨0, _⟩ => rfl | ⟨1, _⟩ => rfl)
theorem idx17 (R : Fin 1000000) : idx_main_v17 (ix1 R) = ix2 R (0 : Fin 1) :=
  funext fun a => Fin.ext (by match a with | ⟨0, _⟩ => exact Nat.div_one _ | ⟨1, _⟩ => rfl)
theorem idx30 (R : Fin 1000000) (k : Fin 64) : idx_main_v30 (ix2 R k) = ix2 R (0 : Fin 1) :=
  funext fun a => Fin.ext (by match a with | ⟨0, _⟩ => rfl | ⟨1, _⟩ => rfl)
theorem idx29 (R : Fin 1000000) : idx_main_v29 (ix2 R (0 : Fin 1)) = ix2 R (0 : Fin 64) :=
  funext fun a => Fin.ext (by match a with | ⟨0, _⟩ => rfl | ⟨1, _⟩ => rfl)

variable (X0 : (⟨S1000000x64, .f32⟩ : BufTy).Contents (Elt Ideal)) (X1 : (⟨S1000000x64, .i32⟩ : BufTy).Contents (Elt Ideal))
  (X2 : (⟨S1000000x1, .i32⟩ : BufTy).Contents (Elt Ideal))

/-- The selected cluster ids: the gather of the probes' ids at the clamped neighbour indices, -1 at padding. -/
abbrev sel : S1000000x64.Idx → BitVec 32 := val_main_v15 (F := Ideal) X1 X2

theorem probe_apply (R : Fin 1000000) : val_main_v20 (F := Ideal) X2 (ix1 R) = valid (X2 (ix2 R (0 : Fin 1))) := by
  simp only [val_main_v20_apply, val_main_v19_apply, val_main_v18_apply, val_main_v17_apply, val_main_c_5_apply, idx17]
  rfl

theorem valid_apply (i : S1000000x64.Idx) : val_main_v16 (F := Ideal) X1 i = valid (X1 i) := by
  simp only [val_main_v16_apply, val_main_v3_apply, val_main_v2_apply, val_main_c_0_apply]
  rfl

theorem same_apply (R : Fin 1000000) (k : Fin 64) :
    val_main_v32 (F := Ideal) X1 X2 (ix2 R k) = same (sel X1 X2 (ix2 R (0 : Fin 64))) (sel X1 X2 (ix2 R k)) := by
  simp only [val_main_v32_apply, val_main_v31_apply, val_main_v30_apply, val_main_v29_apply, idx30, idx29]
  rfl

theorem att_apply (R : Fin 1000000) (k : Fin 64) :
    val_main_v33 (F := Ideal) X1 X2 (ix2 R k) = attMask (X1 (ix2 R k)) (sel X1 X2 (ix2 R (0 : Fin 64))) (sel X1 X2 (ix2 R k)) := by
  rw [val_main_v33_apply, same_apply, valid_apply]
  rfl

theorem rep_apply (R : Fin 1000000) (k : Fin 64) :
    val_main_v36 (F := Ideal) X1 X2 (ix2 R k) = repMask (X1 (ix2 R k)) (sel X1 X2 (ix2 R (0 : Fin 64))) (sel X1 X2 (ix2 R k)) := by
  rw [val_main_v36_apply, val_main_v35_apply, val_main_v34_apply, val_main_cst_10_apply, same_apply, valid_apply]
  rfl

theorem weight_apply (i : S1000000x64.Idx) : val_main_v28 (F := Ideal) X1 X2 i = weight (sel X1 X2 i) := by
  simp only [val_main_v28_apply, val_main_v27_apply, val_main_v26_apply, val_main_cst_9_apply, val_main_v25_apply, val_main_v24_apply, val_main_cst_8_apply, val_main_v23_apply, val_main_v22_apply, val_main_v21_apply, val_main_c_6_apply, val_main_call1_v0_apply, val_main_call1_v1_apply, val_main_cst_apply, val_main_cst_7_apply]
  rfl

theorem attTerm_apply (R : Fin 1000000) (k : Fin 64) :
    val_main_v42 (F := Ideal) X0 X1 X2 (ix2 R k)
      = attTerm (X0 (ix2 R k)) (X1 (ix2 R k)) (sel X1 X2 (ix2 R (0 : Fin 64))) (sel X1 X2 (ix2 R k)) := by
  rw [val_main_v42_apply, val_main_v41_apply, val_main_v40_apply, val_main_v38_apply, val_main_v37_apply, val_main_cst_11_apply, val_main_v39_apply, val_main_cst_12_apply, att_apply]
  rfl

theorem repTerm_apply (R : Fin 1000000) (k : Fin 64) :
    val_main_v47 (F := Ideal) X0 X1 X2 (ix2 R k)
      = repTerm (X0 (ix2 R k)) (X1 (ix2 R k)) (sel X1 X2 (ix2 R (0 : Fin 64))) (sel X1 X2 (ix2 R k)) := by
  rw [val_main_v47_apply, val_main_v46_apply, val_main_v45_apply, val_main_v44_apply, val_main_v43_apply, rep_apply, weight_apply]
  rfl

/-- The four lane sums of row `R`. -/
theorem nAtt_apply (R : Fin 1000000) :
    val_main_v48 (F := Ideal) X1 X2 (ix1 R) = ∑ k : Fin 64, attMask (X1 (ix2 R k)) (sel X1 X2 (ix2 R (0 : Fin 64))) (sel X1 X2 (ix2 R k)) := by
  rw [val_main_v48_apply, val_main_cst_13_apply]
  simp only [idx48, att_apply]
  exact zeroF_add _

theorem nRep_apply (R : Fin 1000000) :
    val_main_v49 (F := Ideal) X1 X2 (ix1 R) = ∑ k : Fin 64, repMask (X1 (ix2 R k)) (sel X1 X2 (ix2 R (0 : Fin 64))) (sel X1 X2 (ix2 R k)) := by
  rw [val_main_v49_apply, val_main_cst_14_apply]
  simp only [idx49, rep_apply]
  exact zeroF_add _

theorem sAtt_apply (R : Fin 1000000) :
    val_main_v50 (F := Ideal) X0 X1 X2 (ix1 R)
      = ∑ k : Fin 64, attTerm (X0 (ix2 R k)) (X1 (ix2 R k)) (sel X1 X2 (ix2 R (0 : Fin 64))) (sel X1 X2 (ix2 R k)) := by
  rw [val_main_v50_apply, val_main_cst_15_apply]
  simp only [idx50, attTerm_apply]
  exact zeroF_add _

theorem sRep_apply (R : Fin 1000000) :
    val_main_v59 (F := Ideal) X0 X1 X2 (ix1 R)
      = ∑ k : Fin 64, repTerm (X0 (ix2 R k)) (X1 (ix2 R k)) (sel X1 X2 (ix2 R (0 : Fin 64))) (sel X1 X2 (ix2 R k)) := by
  rw [val_main_v59_apply, val_main_cst_20_apply]
  simp only [idx59, repTerm_apply]
  exact zeroF_add _

/-- The two guarded quotients of row `R`. -/
theorem attLoss_apply (R : Fin 1000000) :
    val_main_v58 (F := Ideal) X0 X1 X2 (ix1 R)
      = divNoNan (valid (X2 (ix2 R (0 : Fin 1))) * ∑ k : Fin 64, attTerm (X0 (ix2 R k)) (X1 (ix2 R k)) (sel X1 X2 (ix2 R (0 : Fin 64))) (sel X1 X2 (ix2 R k)))
          (∑ k : Fin 64, attMask (X1 (ix2 R k)) (sel X1 X2 (ix2 R (0 : Fin 64))) (sel X1 X2 (ix2 R k))) := by
  rw [val_main_v58_apply, val_main_v53_apply, val_main_v52_apply, val_main_cst_16_apply, val_main_call3_v1_apply, val_main_call3_v0_apply, val_main_cst_19_apply, val_main_v57_apply, val_main_v56_apply, val_main_v55_apply, val_main_v54_apply, val_main_cst_17_apply, val_main_call2_v1_apply, val_main_call2_v0_apply, val_main_cst_18_apply, val_main_v51_apply, nAtt_apply, sAtt_apply, probe_apply]
  rfl

theorem repLoss_apply (R : Fin 1000000) :
    val_main_v67 (F := Ideal) X0 X1 X2 (ix1 R)
      = divNoNan (valid (X2 (ix2 R (0 : Fin 1))) * ∑ k : Fin 64, repTerm (X0 (ix2 R k)) (X1 (ix2 R k)) (sel X1 X2 (ix2 R (0 : Fin 64))) (sel X1 X2 (ix2 R k)))
          (∑ k : Fin 64, repMask (X1 (ix2 R k)) (sel X1 X2 (ix2 R (0 : Fin 64))) (sel X1 X2 (ix2 R k))) := by
  rw [val_main_v67_apply, val_main_v62_apply, val_main_v61_apply, val_main_cst_21_apply, val_main_call5_v1_apply, val_main_call5_v0_apply, val_main_cst_24_apply, val_main_v66_apply, val_main_v65_apply, val_main_v64_apply, val_main_v63_apply, val_main_cst_22_apply, val_main_call4_v1_apply, val_main_call4_v0_apply, val_main_cst_23_apply, val_main_v60_apply, nRep_apply, sRep_apply, probe_apply]
  rfl

/-- Row `R` of the array the reference sums. -/
theorem row_apply (R : Fin 1000000) :
    val_main_v69 (F := Ideal) X0 X1 X2 (ix1 R)
      = rowVal (fun k => X0 (ix2 R k)) (fun k => X1 (ix2 R k)) (fun k => sel X1 X2 (ix2 R k)) (X2 (ix2 R (0 : Fin 1))) := by
  rw [val_main_v69_apply, val_main_v68_apply, attLoss_apply, repLoss_apply, probe_apply]
  rfl

end Cert.ReferenceIdeal.Row
end
-- ==== Proof.SumBridge.lean ====
import Idealize.ShloMosaic.Lib.ValueIdx

/-! Regrouping a long sum.  A sum over `a * b` consecutive naturals is the sum over `a` runs of `b`; the sum over the
one-coordinate indices of a vector is the sum over the coordinate.  Addition in the monoid is commutative and
associative, which is all these need: they hold in the extended reals at the infinities too. -/

namespace Cert.SumBridge

open Idealize.ShloMosaic Idealize.ShloMosaic.ValueIdx Finset

variable {M : Type*} [AddCommMonoid M]

/-- `a` consecutive runs of length `b`: position `b * i + j` is entry `j` of run `i`. -/
theorem sum_range_runs (f : ℕ → M) (b : ℕ) : ∀ a : ℕ, ∑ i ∈ range a, ∑ j ∈ range b, f (b * i + j) = ∑ k ∈ range (a * b), f k
  | 0 => by simp
  | a + 1 => by
    rw [sum_range_succ, sum_range_runs f b a, Nat.succ_mul, sum_range_add, Nat.mul_comm a b]

/-- The indices of a rank-1 array are its coordinates. -/
def idxEquiv1 {n : Nat} : (⟨1, ![n]⟩ : Shape).Idx ≃ Fin n where
  toFun j := j 0
  invFun p := ix1 p
  left_inv j := (eq_ix1 j).symm
  right_inv _ := rfl

theorem sum_idx1 {n : Nat} (f : (⟨1, ![n]⟩ : Shape).Idx → M) : ∑ j, f j = ∑ p : Fin n, f (ix1 p) :=
  (Equiv.sum_comp (idxEquiv1 (n := n)).symm f).symm

/-- A sum over `Fin n` of a function given on the naturals, as a sum over the first `n` naturals. -/
theorem sum_fin_eq_range (n : ℕ) (f : ℕ → M) : ∑ p : Fin n, f p.val = ∑ k ∈ range n, f k :=
  (Finset.sum_range f).symm

/-- Two cores, fifty blocks each, ten thousand rows a block: every one of the million rows once. -/
theorem sum_cores_blocks_rows (f : ℕ → M) :
    ∑ q ∈ range 2, ∑ s ∈ range 50, ∑ r ∈ range 10000, f (10000 * (50 * q + s) + r) = ∑ R ∈ range 1000000, f R := by
  have h1 := sum_range_runs (fun n => ∑ r ∈ range 10000, f (10000 * n + r)) 50 2
  have h2 := sum_range_runs f 10000 100
  exact h1.trans h2

/-- If block `n`'s part is the sum of `g` over rows `10000 n … 10000 n + 9999`, then the parts of the fifty blocks of
each of the two cores add up to the sum of `g` over all the rows. -/
theorem total_of_parts (part : ℕ → M) (g : Fin 1000000 → M)
    (hpart : ∀ (n : ℕ) (hn : n < 100), part n = ∑ r : Fin 10000, g ⟨10000 * n + r.val, by have := r.isLt; omega⟩) :
    ∑ q : Fin 2, ∑ s ∈ range 50, part (50 * q.val + s) = ∑ R : Fin 1000000, g R := by
  let f : ℕ → M := fun R => if h : R < 1000000 then g ⟨R, h⟩ else 0
  have hf : ∀ R : Fin 1000000, f R.val = g R := fun R => by
    show (if h : R.val < 1000000 then g ⟨R.val, h⟩ else 0) = g R
    rw [dif_pos R.isLt]
  have hp : ∀ n, n < 100 → part n = ∑ r ∈ range 10000, f (10000 * n + r) := by
    intro n hn
    refine (hpart n hn).trans (Eq.trans ?_ (sum_fin_eq_range 10000 (fun r => f (10000 * n + r))))
    refine Finset.sum_congr rfl fun r _ => ?_
    show g _ = (if h : 10000 * n + r.val < 1000000 then g ⟨10000 * n + r.val, h⟩ else 0)
    rw [dif_pos (by have := r.isLt; omega)]
  refine Eq.trans (sum_fin_eq_range 2 (fun q => ∑ s ∈ range 50, part (50 * q + s))) ?_
  refine Eq.trans (Finset.sum_congr rfl fun q hq => Finset.sum_congr rfl fun s hs =>
    hp (50 * q + s) (by have := Finset.mem_range.mp hq; have := Finset.mem_range.mp hs; omega)) ?_
  refine Eq.trans (sum_cores_blocks_rows f) ?_
  refine Eq.trans (sum_fin_eq_range 1000000 f).symm ?_
  exact Finset.sum_congr rfl fun R _ => hf R

end Cert.SumBridge
-- ==== Proof.TailSpec.lean ====
import Idealize.ShloMosaic.PureOps
import Idealize.ShloMosaic.PureOps.Ideal

/-! The last step both programs share: from the total numerator and the total denominator (each a rank-0 array),
the quotient, 0 when the denominator is 0, spread to a one-element vector. -/

noncomputable section
namespace Cert.TailSpec
open Idealize.ShloMosaic

variable {F : FTy → Type} [FloatOps F]

abbrev S0 : Shape := ⟨0, ![]⟩
abbrev S1v : Shape := ⟨1, ![1]⟩

/-- The guarded quotient of the two totals, as a one-element vector. -/
def lossTail (hb : S0.BroadcastsInDim S1v (![] : Fin 0 → Fin S1v.rank)) (num den : FVec F S0 .f32) : FVec F S1v .f32 :=
  broadcastInDim S1v ![] hb
    (select (cmpf .oeq den (constant (F := F) S0 .f32 0x00000000#32)) (id (constant (F := F) S0 .f32 0x00000000#32))
      (Host.divf num
        (select (cmpf .oeq den (constant (F := F) S0 .f32 0x00000000#32)) (id (constant (F := F) S0 .f32 0x3F800000#32)) den)))

end Cert.TailSpec
end
-- ==== Proof.RefTotals.lean ====
import proofs.«123577_j5428838662735_1_alg».proof.Proof.RefRow
import proofs.«123577_j5428838662735_1_alg».proof.Proof.SumBridge
import proofs.«123577_j5428838662735_1_alg».proof.Proof.TailSpec

/-! The reference's two totals as sums over the million rows, and its last step. -/

noncomputable section
open Idealize.ShloMosaic Idealize.ShloMosaic.ValueIdx Cert.RowSpec Cert.TailSpec
namespace Cert.ReferenceIdeal.Row
open Cert.ReferenceIdeal Cert.ReferenceIdeal.ReadP

variable (X0 : (⟨S1000000x64, .f32⟩ : BufTy).Contents (Elt Ideal)) (X1 : (⟨S1000000x64, .i32⟩ : BufTy).Contents (Elt Ideal))
  (X2 : (⟨S1000000x1, .i32⟩ : BufTy).Contents (Elt Ideal))

theorem numTotal_apply (i : S_.Idx) :
    val_main_v70 (F := Ideal) X0 X1 X2 i
      = zeroF + ∑ R : Fin 1000000, rowVal (fun k => X0 (ix2 R k)) (fun k => X1 (ix2 R k)) (fun k => sel X1 X2 (ix2 R k)) (X2 (ix2 R (0 : Fin 1))) := by
  rw [val_main_v70_apply, Cert.SumBridge.sum_idx1]
  exact congrArg (zeroF + ·) (Finset.sum_congr rfl fun R _ => row_apply X0 X1 X2 R)

theorem denTotal_apply (i : S_.Idx) :
    val_main_v71 (F := Ideal) X2 i = zeroF + ∑ R : Fin 1000000, valid (X2 (ix2 R (0 : Fin 1))) := by
  rw [val_main_v71_apply, Cert.SumBridge.sum_idx1]
  exact congrArg (zeroF + ·) (Finset.sum_congr rfl fun R _ => probe_apply X2 R)

/-- The reference's result is the shared last step of its two totals. -/
theorem tail_apply :
    val_main_v77 (F := Ideal) X0 X1 X2 = lossTail (F := Ideal) Facts₀.bcast_S_S1 (val_main_v70 (F := Ideal) X0 X1 X2) (val_main_v71 (F := Ideal) X2) := rfl

end Cert.ReferenceIdeal.Row
end
-- ==== Proof.KernelPieces.lean ====
import proofs.«123577_j5428838662735_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)
/-! What one run of the body leaves behind, case by case.  The body adds the block's partial numerator and partial
denominator to the two one-element accumulators; at the first block of a core's range the accumulators are first
reset to zero, and at the last block their new contents are also copied to the two outputs. -/

namespace Cert.KernelIdeal.Acc
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block's partial numerator, from the four input blocks. -/
abbrev partNum (x0 : Vec F S10000x64 .f32) (x1 x2 : Vec F S10000x64 .i32) (x3 : Vec F S10000x1 .i32) : FVec F S1x1 .f32 :=
  k0_pay15 x0 (k0_pay9 x3) (k0_pay10 x2) (k0_pay12 x1 x2) (k0_pay13 x1 x2) (k0_pay14 x0) (Scalar.ofBits .f32 0x3F800000#32)

/-- The block's partial denominator: it depends on the probes' own ids only. -/
abbrev partDen (x3 : Vec F S10000x1 .i32) : FVec F S1x1 .f32 := k0_pay16 (k0_pay9 x3)

/-- First block of a range: the numerator accumulator ends at the reset value plus the block's part. -/
theorem first_num (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S10000x64 .f32) (x1 : Vec F S10000x64 .i32) (x2 : Vec F S10000x64 .i32) (x3 : Vec F S10000x1 .i32) :
    sout0_A_0 c i arg2 harg2 arg3 harg3 arg4 harg4 arg5 harg5 arg6 harg6 arg7 harg7 arg8 harg8 arg9 harg9 hc0 hc1 x0 x1 x2 x3 = k0_pay1 (partNum x0 x1 x2 x3) k0_pay5 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

/-- First block of a range: the denominator accumulator likewise. -/
theorem first_den (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S10000x64 .f32) (x1 : Vec F S10000x64 .i32) (x2 : Vec F S10000x64 .i32) (x3 : Vec F S10000x1 .i32) :
    sout0_A_1 c i arg2 harg2 arg3 harg3 arg4 harg4 arg5 harg5 arg6 harg6 arg7 harg7 arg8 harg8 arg9 harg9 hc0 hc1 x0 x1 x2 x3 = k0_pay2 (partDen x3) k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

/-- A middle block: the numerator accumulator ends at what it held plus the block's part. -/
theorem mid_num (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S10000x64 .f32) (x1 : Vec F S10000x64 .i32) (x2 : Vec F S10000x64 .i32) (x3 : Vec F S10000x1 .i32) (xs0 xs1 : Vec F S1x1 .f32) :
    sout0_B_0 c i arg2 harg2 arg3 harg3 arg4 harg4 arg5 harg5 arg6 harg6 arg7 harg7 arg8 harg8 arg9 harg9 hc0 hc1 x0 x1 x2 x3 xs0 xs1 = k0_pay1 (partNum x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

theorem mid_den (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S10000x64 .f32) (x1 : Vec F S10000x64 .i32) (x2 : Vec F S10000x64 .i32) (x3 : Vec F S10000x1 .i32) (xs0 xs1 : Vec F S1x1 .f32) :
    sout0_B_1 c i arg2 harg2 arg3 harg3 arg4 harg4 arg5 harg5 arg6 harg6 arg7 harg7 arg8 harg8 arg9 harg9 hc0 hc1 x0 x1 x2 x3 xs0 xs1 = k0_pay2 (partDen x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

/-- The last block of a range: the accumulators as at a middle block, -/
theorem last_num (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S10000x64 .f32) (x1 : Vec F S10000x64 .i32) (x2 : Vec F S10000x64 .i32) (x3 : Vec F S10000x1 .i32) (xs0 xs1 : Vec F S1x1 .f32) :
    sout0_C_0 c i arg2 harg2 arg3 harg3 arg4 harg4 arg5 harg5 arg6 harg6 arg7 harg7 arg8 harg8 arg9 harg9 hc0 hc1 x0 x1 x2 x3 xs0 xs1 = k0_pay1 (partNum x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

theorem last_den (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S10000x64 .f32) (x1 : Vec F S10000x64 .i32) (x2 : Vec F S10000x64 .i32) (x3 : Vec F S10000x1 .i32) (xs0 xs1 : Vec F S1x1 .f32) :
    sout0_C_1 c i arg2 harg2 arg3 harg3 arg4 harg4 arg5 harg5 arg6 harg6 arg7 harg7 arg8 harg8 arg9 harg9 hc0 hc1 x0 x1 x2 x3 xs0 xs1 = k0_pay2 (partDen x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

/-- and each output block receives the new contents of its accumulator. -/
theorem last_out_num (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S10000x64 .f32) (x1 : Vec F S10000x64 .i32) (x2 : Vec F S10000x64 .i32) (x3 : Vec F S10000x1 .i32) (xs0 xs1 : Vec F S1x1 .f32) :
    out0_C_4 c i arg2 harg2 arg3 harg3 arg4 harg4 arg5 harg5 arg6 harg6 arg7 harg7 arg8 harg8 arg9 harg9 hc0 hc1 x0 x1 x2 x3 xs0 xs1 = k0_pay3 (k0_pay1 (partNum x0 x1 x2 x3) xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]
  rw [View.readCov_unit_zero (S := S1x1) _ hz2]
  try simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

theorem last_out_den (c : Dev nD) (i : grid0.Coords) (arg2 : Memref sig .tc .vmem S10000x64 .f32) (harg2 : arg2.IsWhole) (arg3 : Memref sig .tc .vmem S10000x64 .i32) (harg3 : arg3.IsWhole) (arg4 : Memref sig .tc .vmem S10000x64 .i32) (harg4 : arg4.IsWhole) (arg5 : Memref sig .tc .vmem S10000x1 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S10000x64 .f32) (x1 : Vec F S10000x64 .i32) (x2 : Vec F S10000x64 .i32) (x3 : Vec F S10000x1 .i32) (xs0 xs1 : Vec F S1x1 .f32) :
    out0_C_5 c i arg2 harg2 arg3 harg3 arg4 harg4 arg5 harg5 arg6 harg6 arg7 harg7 arg8 harg8 arg9 harg9 hc0 hc1 x0 x1 x2 x3 xs0 xs1 = k0_pay4 (k0_pay2 (partDen x3) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]
  rw [View.readCov_unit_zero (S := S1x1) _ hz2]
  try simp only [View.readAt_eq_ld, harg2.read_unread, harg3.read_unread, harg4.read_unread, harg5.read_unread, harg8.read_unread, harg9.read_unread, View.ld_unit_zero (S := S1x1) hz2, View.ld_unit_zero (S := S10000x64) hz2, View.ld_unit_zero (S := S10000x1) hz2]

end Cert.KernelIdeal.Acc
end
-- ==== Proof.KernelAcc.lean ====
import proofs.«123577_j5428838662735_1_alg».proof.Proof.KernelPieces
import Idealize.ShloMosaic.Lib.Pipeline.Value

/-! The two accumulators over a core's range of blocks.  Blocks are visited in order; a core's range is fifty
consecutive blocks; at the first block of a range the accumulator restarts from zero, at every later block the block's
part is added to what the block before left, and after the last block of the range the total is written to the core's
entry of the output.  So the entry for core q is zero plus the parts of blocks 50q … 50q+49, in that order. -/

noncomputable section
open Idealize.ShloMosaic Idealize.ShloMosaic.TcCoe Idealize.SL.Sem
open Idealize.ShloMosaic.Pipeline (Dat)
namespace Cert.KernelIdeal.Acc
open Cert.KernelIdeal Cert.KernelIdeal.Gen
variable {F : FTy → Type} [FloatOps F]
variable (m : (ℓ : Loc nD τ sig) → Buf (Elt F) ℓ)

/-- The partial numerator and denominator of block `n`. -/
def blockNum (c : Dev nD) (n : ℕ) (h : n < cfg0.N) : Vec F S1x1 .f32 :=
  partNum (iblk m c 0 ⟨n, h⟩) (iblk m c 1 ⟨n, h⟩) (iblk m c 2 ⟨n, h⟩) (iblk m c 3 ⟨n, h⟩)
def blockDen (c : Dev nD) (n : ℕ) (h : n < cfg0.N) : Vec F S1x1 .f32 :=
  partDen (iblk m c 3 ⟨n, h⟩)

/-- The numerator accumulator after block `n`: restarted at the first block of a range, stepped elsewhere. -/
theorem num_first (c : Dev nD) (n : ℕ) (h : n < cfg0.N) (h0 : n % 50 = 0) :
    (outsAt0 m c n h).2.2.1 = k0_pay1 (blockNum m c n h) k0_pay5 := by
  have h1 : ¬(⟨n, h⟩ : Fin cfg0.N).val % 50 = 49 := by dsimp only; omega
  rw [outsAt0_A m c ⟨n, h⟩ h0 h1]
  exact first_num c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

theorem den_first (c : Dev nD) (n : ℕ) (h : n < cfg0.N) (h0 : n % 50 = 0) :
    (outsAt0 m c n h).2.2.2 = k0_pay2 (blockDen m c n h) k0_pay6 := by
  have h1 : ¬(⟨n, h⟩ : Fin cfg0.N).val % 50 = 49 := by dsimp only; omega
  rw [outsAt0_A m c ⟨n, h⟩ h0 h1]
  exact first_den c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

theorem num_step (c : Dev nD) (n : ℕ) (h : n + 1 < cfg0.N) (h0 : ¬(n + 1) % 50 = 0) :
    (outsAt0 m c (n + 1) h).2.2.1 = k0_pay1 (blockNum m c (n + 1) h) (outsAt0 m c n (Nat.lt_of_succ_lt h)).2.2.1 := by
  by_cases h1 : (n + 1) % 50 = 49
  · rw [outsAt0_C m c ⟨n + 1, h⟩ h0 h1]
    exact last_num c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2
  · rw [outsAt0_B m c ⟨n + 1, h⟩ h0 h1]
    exact mid_num c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2

theorem den_step (c : Dev nD) (n : ℕ) (h : n + 1 < cfg0.N) (h0 : ¬(n + 1) % 50 = 0) :
    (outsAt0 m c (n + 1) h).2.2.2 = k0_pay2 (blockDen m c (n + 1) h) (outsAt0 m c n (Nat.lt_of_succ_lt h)).2.2.2 := by
  by_cases h1 : (n + 1) % 50 = 49
  · rw [outsAt0_C m c ⟨n + 1, h⟩ h0 h1]
    exact last_den c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2
  · rw [outsAt0_B m c ⟨n + 1, h⟩ h0 h1]
    exact mid_den c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1 (outsAt0 m c n (Nat.lt_of_succ_lt h)).2.2.2

/-- At the last block of a range each output block receives its accumulator's new contents. -/
theorem out_num_last (c : Dev nD) (n : ℕ) (h : n < cfg0.N) (h1 : n % 50 = 49) :
    (outsAt0 m c n h).1 = k0_pay3 (outsAt0 m c n h).2.2.1 := by
  have h0 : ¬(⟨n, h⟩ : Fin cfg0.N).val % 50 = 0 := by dsimp only; omega
  rw [outsAt0_C m c ⟨n, h⟩ h0 h1]
  dsimp only
  rw [last_out_num c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
    last_num c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2]

theorem out_den_last (c : Dev nD) (n : ℕ) (h : n < cfg0.N) (h1 : n % 50 = 49) :
    (outsAt0 m c n h).2.1 = k0_pay4 (outsAt0 m c n h).2.2.2 := by
  have h0 : ¬(⟨n, h⟩ : Fin cfg0.N).val % 50 = 0 := by dsimp only; omega
  rw [outsAt0_C m c ⟨n, h⟩ h0 h1]
  dsimp only
  rw [last_out_den c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2,
    last_den c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2.2.1 (outsAt0 m c (n - 1) (Nat.lt_of_le_of_lt (Nat.sub_le _ _) h)).2.2.2]

end Cert.KernelIdeal.Acc
end
-- ==== Proof.KernelFold.lean ====
import proofs.«123577_j5428838662735_1_alg».proof.Proof.KernelAcc
import proofs.«123577_j5428838662735_1_alg».proof.Proof.RowSpec

/-! The two output arrays after the run, at the ideal values.  Entry `q` of each (one entry per core) is the zero
word plus the sum, over the fifty blocks 50q … 50q+49 of that core's range, of the block's part: the accumulator is
the running total over a range, and the last block of the range writes it out. -/

noncomputable section
open Idealize.ShloMosaic Idealize.ShloMosaic.TcCoe Idealize.SL.Sem Idealize.ShloMosaic.ValueIdx
open Idealize.ShloMosaic.Pipeline (Dat)
open Cert.RowSpec
namespace Cert.KernelIdeal.Acc
open Cert.KernelIdeal Cert.KernelIdeal.Gen

section AnyValues
variable {F : FTy → Type} [FloatOps F]

/-- A one-element block viewed as a [1,1,1] block holds the same element. -/
theorem pay3_apply (x : Vec F S1x1 .f32) (j : S1x1x1.Idx) : k0_pay3 x j = x (ix2 (0 : Fin 1) (0 : Fin 1)) := by
  unfold k0_pay3
  refine shapeCast_apply x _ j (ix2 (0 : Fin 1) (0 : Fin 1)) ?_
  rw [Shape.rowMajor_val_two, Shape.rowMajor_val_three]
  have h0 : (j 0).val < 1 := (j 0).isLt
  have h1 : (j 1).val < 1 := (j 1).isLt
  have h2 : (j 2).val < 1 := (j 2).isLt
  show (0 : ℕ) * 1 + 0 = ((j 0).val * 1 + (j 1).val) * 1 + (j 2).val
  omega

theorem pay4_apply (x : Vec F S1x1 .f32) (j : S1x1x1.Idx) : k0_pay4 x j = x (ix2 (0 : Fin 1) (0 : Fin 1)) := by
  unfold k0_pay4
  refine shapeCast_apply x _ j (ix2 (0 : Fin 1) (0 : Fin 1)) ?_
  rw [Shape.rowMajor_val_two, Shape.rowMajor_val_three]
  have h0 : (j 0).val < 1 := (j 0).isLt
  have h1 : (j 1).val < 1 := (j 1).isLt
  have h2 : (j 2).val < 1 := (j 2).isLt
  show (0 : ℕ) * 1 + 0 = ((j 0).val * 1 + (j 1).val) * 1 + (j 2).val
  omega

end AnyValues

/-- The accumulator update and the reset value, read at the one entry. -/
theorem pay1_apply (x y : Vec Ideal S1x1 .f32) (i : S1x1.Idx) : k0_pay1 x y i = y i + x i := by
  unfold k0_pay1; rw [shapeCast_self]; rfl
theorem pay2_apply (x y : Vec Ideal S1x1 .f32) (i : S1x1.Idx) : k0_pay2 x y i = y i + x i := by
  unfold k0_pay2; rw [shapeCast_self]; rfl
theorem pay5_apply (i : S1x1.Idx) : k0_pay5 (F := Ideal) i = zeroF := by
  unfold k0_pay5; rw [shapeCast_self]; rfl
theorem pay6_apply (i : S1x1.Idx) : k0_pay6 (F := Ideal) i = zeroF := by
  unfold k0_pay6; rw [shapeCast_self]; rfl

variable (m : (ℓ : Loc nD τ sig) → Buf (Elt Ideal) ℓ)

/-- Block `n`'s parts as functions of every natural (zero past the grid: those values are never used). -/
def numPart (c : Dev nD) (n : ℕ) : S1x1.Idx → EReal := fun i => if h : n < cfg0.N then blockNum m c n h i else 0
def denPart (c : Dev nD) (n : ℕ) : S1x1.Idx → EReal := fun i => if h : n < cfg0.N then blockDen m c n h i else 0

/-- After the last block of a range the numerator accumulator holds zero plus the range's fifty parts. -/
theorem num_at_last (c : Dev nD) (n : ℕ) (h : n < cfg0.N) (h1 : n % 50 = 49) (i : S1x1.Idx) :
    (outsAt0 m c n h).2.2.1 i = zeroF + ∑ s ∈ Finset.range 50, numPart m c (50 * (n / 50) + s) i := by
  have h' : 50 * (n / 50) + n % 50 < cfg0.N := by rw [Nat.div_add_mod]; exact h
  have e := Pipeline.eq_accAt_of_mod (fun n h => (outsAt0 m c n h).2.2.1) 50
    (fun n h => k0_pay1 (blockNum m c n h) (k0_pay5 (F := Ideal))) (fun n h acc => k0_pay1 (blockNum m c n h) acc)
    (fun n h h0 => num_first m c n h h0) (fun n h h0 => num_step m c n h h0) (by decide) n h h'
  refine (congrFun e i).trans ?_
  refine (Pipeline.accAt_add_apply _ _ (fun _ => zeroF) (numPart m c) (50 * (n / 50)) 49 ?_ ?_ (n % 50) (by omega) h' i).trans ?_
  · intro hb i
    show k0_pay1 (blockNum m c _ hb) (k0_pay5 (F := Ideal)) i = zeroF + numPart m c _ i
    rw [pay1_apply, pay5_apply]; unfold numPart; rw [dif_pos hb]
  · intro n' hn' acc i _ _
    show k0_pay1 (blockNum m c n' hn') acc i = acc i + numPart m c n' i
    rw [pay1_apply]; unfold numPart; rw [dif_pos hn']
  · rw [h1]

theorem den_at_last (c : Dev nD) (n : ℕ) (h : n < cfg0.N) (h1 : n % 50 = 49) (i : S1x1.Idx) :
    (outsAt0 m c n h).2.2.2 i = zeroF + ∑ s ∈ Finset.range 50, denPart m c (50 * (n / 50) + s) i := by
  have h' : 50 * (n / 50) + n % 50 < cfg0.N := by rw [Nat.div_add_mod]; exact h
  have e := Pipeline.eq_accAt_of_mod (fun n h => (outsAt0 m c n h).2.2.2) 50
    (fun n h => k0_pay2 (blockDen m c n h) (k0_pay6 (F := Ideal))) (fun n h acc => k0_pay2 (blockDen m c n h) acc)
    (fun n h h0 => den_first m c n h h0) (fun n h h0 => den_step m c n h h0) (by decide) n h h'
  refine (congrFun e i).trans ?_
  refine (Pipeline.accAt_add_apply _ _ (fun _ => zeroF) (denPart m c) (50 * (n / 50)) 49 ?_ ?_ (n % 50) (by omega) h' i).trans ?_
  · intro hb i
    show k0_pay2 (blockDen m c _ hb) (k0_pay6 (F := Ideal)) i = zeroF + denPart m c _ i
    rw [pay2_apply, pay6_apply]; unfold denPart; rw [dif_pos hb]
  · intro n' hn' acc i _ _
    show k0_pay2 (blockDen m c n' hn') acc i = acc i + denPart m c n' i
    rw [pay2_apply]; unfold denPart; rw [dif_pos hn']
  · rw [h1]

/-- The two output arrays after the run. -/
def numArr (c : Dev nD) : S2x1x1.Idx → EReal := fun i =>
  zeroF + ∑ s ∈ Finset.range 50, numPart m c (50 * (i 0).val + s) (ix2 (0 : Fin 1) (0 : Fin 1))
def denArr (c : Dev nD) : S2x1x1.Idx → EReal := fun i =>
  zeroF + ∑ s ∈ Finset.range 50, denPart m c (50 * (i 0).val + s) (ix2 (0 : Fin 1) (0 : Fin 1))

/-- The two output windows' index maps over the grid: the block of point `t` is entry `t / 50`. -/
theorem idx4 : ∀ t : Fin cfg0.N, win0_4.index t (0 : Fin 3) = t.val / 50 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 50 ∧ win0_5.index t (1 : Fin 3) = 0 ∧ win0_5.index t (2 : Fin 3) = 0 :=
  (by decide +kernel : ∀ t : Fin grid0.N, _)

/-- What a writing point writes back is its entry of the array above. -/
theorem flushed_num (c : Dev nD) (t : Fin cfg0.N) (hf : (cfg0.win 4).flush t = true) :
    (dats m 0 c).flushed 4 t = ((cfg0.win 4).blk t).view.read (Elt Ideal) (numArr m c) := by
  have h1 : t.val % 50 = 49 := (flush0_4 t).mp hf
  show (cfg0.win 4).cut (grid0.coords t) ((dats m 0 c).after 4 t) = _
  rw [after0_4, out_num_last m c t.val t.isLt h1]
  funext j
  show k0_pay3 (outsAt0 m c t.val t.isLt).2.2.1 j = numArr m c (((cfg0.win 4).blk t).view.emb j)
  rw [pay3_apply, num_at_last m c t.val t.isLt h1]
  have e : ((((cfg0.win 4).blk t).view.emb j) 0).val = t.val / 50 := by
    show win0_4.index t (0 : Fin 3) * 1 + 1 * (j 0).val = _
    have h0 : (j 0).val < 1 := (j 0).isLt
    have := (idx4 t).1
    omega
  unfold numArr
  rw [e]

theorem flushed_den (c : Dev nD) (t : Fin cfg0.N) (hf : (cfg0.win 5).flush t = true) :
    (dats m 0 c).flushed 5 t = ((cfg0.win 5).blk t).view.read (Elt Ideal) (denArr m c) := by
  have h1 : t.val % 50 = 49 := (flush0_5 t).mp hf
  show (cfg0.win 5).cut (grid0.coords t) ((dats m 0 c).after 5 t) = _
  rw [after0_5, out_den_last m c t.val t.isLt h1]
  funext j
  show k0_pay4 (outsAt0 m c t.val t.isLt).2.2.2 j = denArr m c (((cfg0.win 5).blk t).view.emb j)
  rw [pay4_apply, den_at_last m c t.val t.isLt h1]
  have e : ((((cfg0.win 5).blk t).view.emb j) 0).val = t.val / 50 := by
    show win0_5.index t (0 : Fin 3) * 1 + 1 * (j 0).val = _
    have h0 : (j 0).val < 1 := (j 0).isLt
    have := (idx5 t).1
    omega
  unfold denArr
  rw [e]

/-- Every entry is some writing point's: entry `q` is written by the last block of range `q`. -/
theorem cover_num (i : S2x1x1.Idx) : ∃ t : Fin cfg0.N, (cfg0.win 4).flush t = true ∧ i ∈ ((cfg0.win 4).blk t).view.set := by
  have hN : cfg0.N = 100 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 50 * (i 0).val + 49 := ⟨⟨50 * (i 0).val + 49, by omega⟩, rfl⟩
  refine ⟨t, (flush0_4 t).mpr (by omega), ?_⟩
  show i ∈ ((View.whole main_v16_0).slice (win0_4.rect t)).set
  rw [View.set_slice_whole, Rect.mem_set_unit]
  obtain ⟨e0, e1, e2⟩ := idx4 t
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 1 ≤ (i 1).val ∧ (i 1).val < win0_4.index t (1 : Fin 3) * 1 + 1; rw [e1]; omega
  | ⟨2, _⟩ => show win0_4.index t (2 : Fin 3) * 1 ≤ (i 2).val ∧ (i 2).val < win0_4.index t (2 : Fin 3) * 1 + 1; rw [e2]; omega

theorem cover_den (i : S2x1x1.Idx) : ∃ t : Fin cfg0.N, (cfg0.win 5).flush t = true ∧ i ∈ ((cfg0.win 5).blk t).view.set := by
  have hN : cfg0.N = 100 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 50 * (i 0).val + 49 := ⟨⟨50 * (i 0).val + 49, by omega⟩, rfl⟩
  refine ⟨t, (flush0_5 t).mpr (by omega), ?_⟩
  show i ∈ ((View.whole main_v16_1).slice (win0_5.rect t)).set
  rw [View.set_slice_whole, Rect.mem_set_unit]
  obtain ⟨e0, e1, e2⟩ := idx5 t
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 1 ≤ (i 2).val ∧ (i 2).val < win0_5.index t (2 : Fin 3) * 1 + 1; rw [e2]; omega

/-- The arrays after the run. -/
theorem final_num (c : Dev nD) : (dats m 0 c).arrAt 4 cfg0.N = numArr m c :=
  (dats m 0 c).arrAt_eq_of_cover 4 (numArr m c) (flushed_num m c) cover_num
theorem final_den (c : Dev nD) : (dats m 0 c).arrAt 5 cfg0.N = denArr m c :=
  (dats m 0 c).arrAt_eq_of_cover 5 (denArr m c) (flushed_den m c) cover_den

end Cert.KernelIdeal.Acc
end
-- ==== Proof.LibAxisReads.lean ====
/-
  Layout and reduction operations of rank-2 arrays read at an index given by coordinates, at the ideal values.

  * A vector `[a]` cast to a column `[a, 1]` reads, at `(i, u)`, the vector at `i`: both have row-major
    position `i` because the unit coordinate `u` is 0.
  * A column `[a, 1]` broadcast over `[a, b]` reads, at `(p, c)`, the column at `(p, 0)`.
  * For a reduction of a rank-2 array along one axis, the source index over the result index `r` with
    coordinate `k` on the reduced axis is `(r, k)` (axis 1) or `(k, r)` (axis 0).  So a sum along an axis is
    the sum over that axis's coordinates, and a minimum along an axis is the fold of `min`, from the value of
    the starting word, over that axis's coordinates.
-/
import Idealize.ShloMosaic.Lib.ValueIdx
import Idealize.ShloMosaic.Lib.Pipeline.Value
import Idealize.ShloMosaic.Lib.ValueLayout
import Idealize.ShloMosaic.PureOps.Ideal.Laws

/-!
# Unit-axis columns and one-axis reductions of rank-2 arrays, read at an index

General lemmas in the style of the library's layout lemmas: the cast of a vector to a column, the broadcast of
a column over a matrix, and a sum or a minimum of a matrix along one axis, each read at an index written by
its coordinates.
-/

noncomputable section

open scoped BigOperators

namespace Cert.Lib.AxisReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along axis 1: the source index over row `r` with column `k` is `(r, k)`. -/
theorem lift_axis1 {n0 n1 : ℕ} (h : (⟨2, ![n0, n1]⟩ : Shape).Reduces [1] ⟨1, ![n0]⟩) (r : Fin n0) (k : Fin n1) :
    h.lift (ix1 r) k = ix2 r k := by
  funext c
  match c with
  | ⟨0, _⟩ => rfl
  | ⟨1, _⟩ => rfl

/-- Reducing a matrix along axis 0: the source index over column `q` with row `k` is `(k, q)`. -/
theorem lift_axis0 {n0 n1 : ℕ} (h : (⟨2, ![n0, n1]⟩ : Shape).Reduces [0] ⟨1, ![n1]⟩) (q : Fin n1) (k : Fin n0) :
    h.lift (ix1 q) k = ix2 k q := by
  funext c
  match c with
  | ⟨0, _⟩ => rfl
  | ⟨1, _⟩ => rfl

/-- A sum of a matrix along axis 1, at the ideal values, read at row `r`: the sum of the row. -/
theorem add_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (r : Fin n0) :
    multiReduction .add [1] ⟨1, ![n0]⟩ src acc h hφ hacc (ix1 r) = ∑ d : Fin n1, src (ix2 r d) :=
  (Ideal.multiReduction_add_single src acc h hφ hacc (ix1 r)).trans
    (Finset.sum_congr rfl fun d _ => congrArg src (lift_axis1 h r d))

/-- A sum of a matrix along axis 0, at the ideal values, read at column `q`: the sum of the column. -/
theorem add_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ src acc h hφ hacc (ix1 q) = ∑ d : Fin n0, src (ix2 d q) :=
  (Ideal.multiReduction_add_single src acc h hφ hacc (ix1 q)).trans
    (Finset.sum_congr rfl fun d _ => congrArg src (lift_axis0 h q d))

/-- A minimum over ONE axis, at the ideal values: the fold of `min` from the starting word's value over that
axis's coordinates (the twin of the library's law for a maximum). -/
theorem multiReduction_minimumf_single {s t : Shape} {a : Fin s.rank} {φ : FTy} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum of a matrix along axis 1, read at row `r`: the fold of `min` over the row. -/
theorem min_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.minimumf.neutral φ hφ) (r : Fin n0) :
    multiReduction .minimumf [1] ⟨1, ![n0]⟩ src acc h hφ hacc (ix1 r)
      = (Finset.univ : Finset (Fin n1)).fold min (Ideal.ofBits φ acc) (fun d => src (ix2 r d)) :=
  (multiReduction_minimumf_single src acc h hφ hacc (ix1 r)).trans
    (Finset.fold_congr fun d _ => congrArg src (lift_axis1 h r d))

/-- A minimum of a matrix along axis 0, read at column `q`: the fold of `min` over the column. -/
theorem min_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.minimumf.neutral φ hφ) (q : Fin n1) :
    multiReduction .minimumf [0] ⟨1, ![n1]⟩ src acc h hφ hacc (ix1 q)
      = (Finset.univ : Finset (Fin n0)).fold min (Ideal.ofBits φ acc) (fun d => src (ix2 d q)) :=
  (multiReduction_minimumf_single src acc h hφ hacc (ix1 q)).trans
    (Finset.fold_congr fun d _ => congrArg src (lift_axis0 h q d))

end Cert.Lib.AxisReads

end
-- ==== Proof.KernelRow.lean ====
import proofs.«123577_j5428838662735_1_alg».proof.Proof.Gen.KernelIdeal.Skeleton
import proofs.«123577_j5428838662735_1_alg».proof.Proof.LibAxisReads
import proofs.«123577_j5428838662735_1_alg».proof.Proof.RowSpec

/-! One block of rows through the body's arithmetic, at the ideal values.  The body works on a block of ten thousand
rows at once: elementwise masks and terms on the [10000, 64] block, four sums along the 64 lanes kept as one-column
blocks, the two guarded quotients and the probe mask on the column, and last the sum down the column.  Read at its one
entry, the result is the sum over the block's rows of the row function of `RowSpec`; the kernel spells a comparison's
0 or 1 as a signed conversion of the zero-extended bit and a negation as a subtraction from zero, which are the same
reals. -/

noncomputable section
open Idealize.ShloMosaic Idealize.ShloMosaic.ValueIdx Cert.Lib.AxisReads Cert.RowSpec
namespace Cert.KernelIdeal.Row
open Cert.KernelIdeal Cert.KernelIdeal.Gen

theorem cmpi_apply {s : Shape} {w : Nat} (p : CmpIPredicate) (a b : IVec s w) (i : s.Idx) : cmpi p a b i = IntOp.cmpi p (a i) (b i) := rfl
theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

theorem ofBits_zero_sub (x : EReal) : (FloatOps.ofBits (F := Ideal) .f32 0x00000000#32 : EReal) - x = -x := zeroF_sub x

/-- The first column of a block, read at a row. -/
theorem col0_apply (x : IVec S10000x64 32) (r : Fin 10000) (u : Fin 1) :
    extractStridedSlice S10000x1 ![0, 0] x slices_S10000x64_o0_0_S10000x1 (ix2 r u) = x (ix2 r (0 : Fin 64)) :=
  extractStridedSlice_apply ![0, 0] x slices_S10000x64_o0_0_S10000x1 (ix2 r u) (ix2 r (0 : Fin 64)) (fun a => match a with
    | ⟨0, _⟩ => by show r.val = 0 + r.val; omega
    | ⟨1, _⟩ => by show (0 : Nat) = 0 + u.val; omega)

/-- A lane sum of a block kept as a one-column block, read at a row. -/
theorem laneSum_apply (v : FVec Ideal S10000x64 .f32) (r : Fin 10000) (u : Fin 1) :
    shapeCast S10000x1 (multiReduction .add [1] S10000 v 0x00000000#32 reduces_S10000x64_S10000 (.inl rfl) rfl) shapeCasts_S10000_S10000x1 (ix2 r u)
      = ∑ d : Fin 64, v (ix2 r d) :=
  (shapeCast_a_a1_apply _ _ r u).trans (add_axis1_apply v _ _ _ _ r)

/-- The sum down the one column of a block, kept as a one-element block. -/
theorem colSum_apply (v : FVec Ideal S10000x1 .f32) (p q : Fin 1) :
    shapeCast S1x1 (multiReduction .add [0] S1 v 0x00000000#32 reduces_S10000x1_S1 (.inl rfl) rfl) shapeCasts_S1_S1x1 (ix2 p q)
      = ∑ r : Fin 10000, v (ix2 r (0 : Fin 1)) := by
  have hp : p = 0 := Subsingleton.elim _ _
  subst hp
  exact (shapeCast_a_a1_apply _ _ (0 : Fin 1) q).trans (add_axis0_apply v _ _ _ _ (0 : Fin 1))

theorem partNum_apply (x0 : Vec Ideal S10000x64 .f32) (x1 x2 : Vec Ideal S10000x64 .i32) (x3 : Vec Ideal S10000x1 .i32) :
    k0_pay15 x0 (k0_pay9 x3) (k0_pay10 x2) (k0_pay12 x1 x2) (k0_pay13 x1 x2) (k0_pay14 x0) (Scalar.ofBits .f32 0x3F800000#32) (ix2 (0 : Fin 1) (0 : Fin 1))
      = ∑ r : Fin 10000, rowVal (fun k => x0 (ix2 r k)) (fun k => x1 (ix2 r k)) (fun k => x2 (ix2 r k)) (x3 (ix2 r (0 : Fin 1))) := by
  unfold k0_pay15 k0_pay9 k0_pay10 k0_pay12 k0_pay13 k0_pay14 k0_pay11 k0_pay8 k0_pay7
  simp only [colSum_apply, laneSum_apply, col0_apply, broadcastTo_a1_ab_apply, shapeCast_self, mulf_apply, addf_apply, subf_apply, divf_apply, select_apply, cmpf_apply, cmpi_apply, broadcast_apply, sitofp_apply, extui_apply, log_apply, exp_apply]
  refine (colSum_apply _ 0 0).trans ?_
  refine Finset.sum_congr rfl fun r _ => ?_
  simp only [laneSum_apply, col0_apply, broadcastTo_a1_ab_apply, shapeCast_self, mulf_apply, addf_apply, subf_apply, divf_apply, select_apply, cmpf_apply, cmpi_apply, broadcast_apply, sitofp_apply, extui_apply, log_apply, exp_apply]
  rw [laneSum_apply, laneSum_apply, laneSum_apply, laneSum_apply]
  simp only [col0_apply, broadcastTo_a1_ab_apply, shapeCast_self, mulf_apply, addf_apply, subf_apply, divf_apply, select_apply, cmpf_apply, cmpi_apply, broadcast_apply, sitofp_apply, extui_apply, log_apply, exp_apply]
  unfold rowVal divNoNan attTerm repTerm attMask repMask weight notNoise same valid
  simp only [← sitofp_setWidth, ofBits_zero_sub]
  rfl

/-- The block's partial denominator: how many of its probes are not noise. -/
theorem partDen_apply (x3 : Vec Ideal S10000x1 .i32) :
    k0_pay16 (k0_pay9 x3) (ix2 (0 : Fin 1) (0 : Fin 1)) = ∑ r : Fin 10000, valid (x3 (ix2 r (0 : Fin 1))) := by
  unfold k0_pay16 k0_pay9
  refine (colSum_apply _ 0 0).trans ?_
  refine Finset.sum_congr rfl fun r _ => ?_
  simp only [cmpi_apply, broadcast_apply, sitofp_apply, extui_apply]
  unfold valid
  simp only [← sitofp_setWidth]
  rfl

end Cert.KernelIdeal.Row
end
-- ==== Proof.KernelBlocks.lean ====
import proofs.«123577_j5428838662735_1_alg».proof.Proof.KernelFold
import proofs.«123577_j5428838662735_1_alg».proof.Proof.KernelRow

/-! A block's part in terms of the whole arrays.  Block `t` of the four inputs is rows 10000·t … 10000·t + 9999 of
the distances, of the neighbour indices, of the selected ids and of the probes' ids, so the block's partial numerator is
the sum of the row function over those rows, and its partial denominator counts the rows whose probe is not noise. -/

noncomputable section
open Idealize.ShloMosaic Idealize.ShloMosaic.TcCoe Idealize.SL.Sem Idealize.ShloMosaic.ValueIdx
open Idealize.ShloMosaic.Pipeline (Dat)
open Cert.RowSpec
namespace Cert.KernelIdeal.Acc
open Cert.KernelIdeal Cert.KernelIdeal.Gen

variable (m : (ℓ : Loc nD τ sig) → Buf (Elt Ideal) ℓ)

/-- The four input windows' index maps over the grid: point `t` reads row block `t`. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r` of block `t` is row `10000·t + r` of the array. -/
def rowOf (t : Fin cfg0.N) (r : Fin 10000) : Fin 1000000 :=
  ⟨10000 * t.val + r.val, by have h := t.isLt; have hN : cfg0.N = 100 := N_0; have := r.isLt; omega⟩

theorem blk_dist (c : Dev nD) (t : Fin cfg0.N) (r : Fin 10000) (k : Fin 64) :
    (iblk m c 0 t : Vec Ideal S10000x64 .f32) (ix2 r k) = V m c main_arg0 (ix2 (rowOf t r) k) := by
  unfold iblk
  rw [View.read_apply]
  show V m c main_arg0 _ = V m c main_arg0 _
  refine congrArg (V m c main_arg0) ?_
  obtain ⟨e0, e1, -⟩ := idx_in t
  funext a; apply Fin.ext
  match a with
  | ⟨0, _⟩ => show win0_0.index t (0 : Fin 2) * 10000 + 1 * r.val = 10000 * t.val + r.val; rw [e0]; omega
  | ⟨1, _⟩ => show win0_0.index t (1 : Fin 2) * 64 + 1 * k.val = k.val; rw [e1]; omega

theorem blk_nidx (c : Dev nD) (t : Fin cfg0.N) (r : Fin 10000) (k : Fin 64) :
    (iblk m c 1 t : Vec Ideal S10000x64 .i32) (ix2 r k) = V m c main_arg1 (ix2 (rowOf t r) k) := by
  unfold iblk
  rw [View.read_apply]
  show V m c main_arg1 _ = V m c main_arg1 _
  refine congrArg (V m c main_arg1) ?_
  obtain ⟨-, -, e0, e1, -⟩ := idx_in t
  funext a; apply Fin.ext
  match a with
  | ⟨0, _⟩ => show win0_1.index t (0 : Fin 2) * 10000 + 1 * r.val = 10000 * t.val + r.val; rw [e0]; omega
  | ⟨1, _⟩ => show win0_1.index t (1 : Fin 2) * 64 + 1 * k.val = k.val; rw [e1]; omega

theorem blk_sel (c : Dev nD) (t : Fin cfg0.N) (r : Fin 10000) (k : Fin 64) :
    (iblk m c 2 t : Vec Ideal S10000x64 .i32) (ix2 r k) = V m c main_v15 (ix2 (rowOf t r) k) := by
  unfold iblk
  rw [View.read_apply]
  show V m c main_v15 _ = V m c main_v15 _
  refine congrArg (V m c main_v15) ?_
  obtain ⟨-, -, -, -, e0, e1, -⟩ := idx_in t
  funext a; apply Fin.ext
  match a with
  | ⟨0, _⟩ => show win0_2.index t (0 : Fin 2) * 10000 + 1 * r.val = 10000 * t.val + r.val; rw [e0]; omega
  | ⟨1, _⟩ => show win0_2.index t (1 : Fin 2) * 64 + 1 * k.val = k.val; rw [e1]; omega

theorem blk_tid (c : Dev nD) (t : Fin cfg0.N) (r : Fin 10000) (u : Fin 1) :
    (iblk m c 3 t : Vec Ideal S10000x1 .i32) (ix2 r u) = V m c main_arg2 (ix2 (rowOf t r) u) := by
  unfold iblk
  rw [View.read_apply]
  show V m c main_arg2 _ = V m c main_arg2 _
  refine congrArg (V m c main_arg2) ?_
  obtain ⟨-, -, -, -, -, -, e0, e1⟩ := idx_in t
  funext a; apply Fin.ext
  match a with
  | ⟨0, _⟩ => show win0_3.index t (0 : Fin 2) * 10000 + 1 * r.val = 10000 * t.val + r.val; rw [e0]; omega
  | ⟨1, _⟩ => show win0_3.index t (1 : Fin 2) * 1 + 1 * u.val = u.val; rw [e1]; omega

/-- The row function of row `R` of the arrays as the kernel's region finds them. -/
def rowK (c : Dev nD) (R : Fin 1000000) : EReal :=
  rowVal (fun k => V m c main_arg0 (ix2 R k)) (fun k => V m c main_arg1 (ix2 R k)) (fun k => V m c main_v15 (ix2 R k))
    (V m c main_arg2 (ix2 R (0 : Fin 1)))

/-- 1 when the probe of row `R` is not noise. -/
def probeK (c : Dev nD) (R : Fin 1000000) : EReal := valid (V m c main_arg2 (ix2 R (0 : Fin 1)))

/-- The partial numerator of block `n` is the row function summed over the block's rows. -/
theorem blockNum_apply (c : Dev nD) (n : ℕ) (h : n < cfg0.N) :
    blockNum m c n h (ix2 (0 : Fin 1) (0 : Fin 1)) = ∑ r : Fin 10000, rowK m c (rowOf ⟨n, h⟩ r) := by
  unfold blockNum partNum
  refine (Cert.KernelIdeal.Row.partNum_apply (iblk m c 0 ⟨n, h⟩) (iblk m c 1 ⟨n, h⟩) (iblk m c 2 ⟨n, h⟩) (iblk m c 3 ⟨n, h⟩)).trans ?_
  refine Finset.sum_congr rfl fun r _ => ?_
  unfold rowK
  simp only [blk_dist, blk_nidx, blk_sel, blk_tid]

theorem blockDen_apply (c : Dev nD) (n : ℕ) (h : n < cfg0.N) :
    blockDen m c n h (ix2 (0 : Fin 1) (0 : Fin 1)) = ∑ r : Fin 10000, probeK m c (rowOf ⟨n, h⟩ r) := by
  unfold blockDen partDen
  refine (Cert.KernelIdeal.Row.partDen_apply (iblk m c 3 ⟨n, h⟩)).trans ?_
  refine Finset.sum_congr rfl fun r _ => ?_
  unfold probeK
  rw [blk_tid]

end Cert.KernelIdeal.Acc
end
-- ==== Proof.KernelRun.lean ====
import proofs.«123577_j5428838662735_1_alg».proof.Proof.KernelFold
import proofs.«123577_j5428838662735_1_alg».proof.Proof.TailSpec
import Idealize.ShloMosaic.Lib.StableHlo.Run

/-! The kernel program's whole run, read: after the region the host sums each output array over its two entries and
forms the guarded quotient, so the result is the shared last step of the two totals. -/

noncomputable section
open Idealize.ShloMosaic Idealize.ShloMosaic.TcCoe Idealize.SL.Sem
open Idealize.ShloMosaic.Pipeline (Dat)
open Cert.TailSpec
namespace Cert.KernelIdeal.Acc
open Cert.KernelIdeal Cert.KernelIdeal.Gen

section AnyValues
variable {F : FTy → Type} [FloatOps F]

/-- Operations run in sequence: a concatenation is the second list run after the first. -/
theorem after_append (l₁ l₂ : List (HloOp τ sig (Elt F))) : ∀ (V : Valuation τ sig (Elt F)),
    StableHlo.after (l₁ ++ l₂) V = StableHlo.after l₂ (StableHlo.after l₁ V) := by
  induction l₁ with
  | nil => intro V; rfl
  | cons op l ih => intro V; exact ih _

theorem after_flatten5 (a b c d e : List (HloOp τ sig (Elt F))) (V : Valuation τ sig (Elt F)) :
    StableHlo.after (List.flatten [a, b, c, d, e]) V
      = StableHlo.after e (StableHlo.after d (StableHlo.after c (StableHlo.after b (StableHlo.after a V)))) := by
  simp only [List.flatten_cons, List.flatten_nil, List.append_nil, after_append]

/-- The sum of an output array over its entries, from the zero word. -/
abbrev total (x : (⟨S2x1x1, .f32⟩ : BufTy).Contents (Elt F)) : FVec F S0 .f32 :=
  Host.reduceAdd x (constant (F := F) S_ .f32 0x00000000#32) reducesTo_S2x1x1_S_d0_1_2 h_S_

set_option maxHeartbeats 4000000 in
/-- The host operations after the region, from any contents: the result is the last step of the two arrays' totals. -/
theorem tail_read (W : Valuation τ sig (Elt F)) :
    StableHlo.after (List.flatten [hostOps1, hostOps1_1, hostOps1_2, hostOps1_3, hostOps1_4]) W (Proc.devRef .tc main_v24)
      = lossTail bcast_S_S1 (total (W (Proc.devRef .tc main_v16_0))) (total (W (Proc.devRef .tc main_v16_1))) := by
  refine (congrFun (after_flatten5 hostOps1 hostOps1_1 hostOps1_2 hostOps1_3 hostOps1_4 W) (Proc.devRef .tc main_v24)).trans ?_
  after_results
  rfl

end AnyValues

variable (m : (ℓ : Loc nD τ sig) → Buf (Elt Ideal) ℓ) (ρ : Dev nD → PrngReg)

theorem tail_eq (c : Dev nD) :
    Pipeline.afterTail₀ cfgs (dats m) 0 (V0 m) [hostOps1, hostOps1_1, hostOps1_2, hostOps1_3, hostOps1_4] c main_v24
      = lossTail (F := Ideal) bcast_S_S1 (total (F := Ideal) (numArr m c)) (total (F := Ideal) (denArr m c)) := by
  unfold Pipeline.afterTail₀
  refine (tail_read _).trans ?_
  have e4 : Pipeline.withArrays (cfgs 0).spec c (V0 m c) (fun w => (dats m 0 c).arrAt w (cfgs 0).N) (Proc.devRef .tc main_v16_0) = numArr m c :=
    (Pipeline.withArrays_arr spec0 launch0.win.arr_inj c _ _ 4).trans (final_num m c)
  have e5 : Pipeline.withArrays (cfgs 0).spec c (V0 m c) (fun w => (dats m 0 c).arrAt w (cfgs 0).N) (Proc.devRef .tc main_v16_1) = denArr m c :=
    (Pipeline.withArrays_arr spec0 launch0.win.arr_inj c _ _ 5).trans (final_den m c)
  rw [e4, e5]

/-- The run: the result at the last step of the two totals, the arguments unchanged. -/
theorem run : θ_run defs (onTc (τ := τ) (main (F := Ideal))) ⟨m, fun _ => 0, ρ⟩ fun r => ∀ c : Dev nD,
      r.2.mem ((c.tc : Thread nD τ).loc main_v24) = lossTail (F := Ideal) bcast_S_S1 (total (F := Ideal) (numArr m c)) (total (F := Ideal) (denArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c)⟩)
    (run_main m ρ)

end Cert.KernelIdeal.Acc
end
-- ==== Proof.KernelSel.lean ====
import proofs.«123577_j5428838662735_1_alg».proof.Proof.KernelRun
import proofs.«123577_j5428838662735_1_alg».proof.Proof.RefStages

/-! The selected cluster ids the kernel's region reads are the reference's: the host operations before the region
(clamp the neighbour index at 0, gather the probes' ids there, -1 at padding) are, one for one, the reference's first
operations, applied to the same two integer arguments. -/

noncomputable section
open Idealize.ShloMosaic Idealize.ShloMosaic.TcCoe Idealize.SL.Sem
namespace Cert.KernelIdeal.Acc
open Cert.KernelIdeal Cert.KernelIdeal.Gen

variable {F : FTy → Type} [FloatOps F]

theorem after_flatten2 (a b : List (HloOp τ sig (Elt F))) (V : Valuation τ sig (Elt F)) :
    StableHlo.after (List.flatten [a, b]) V = StableHlo.after b (StableHlo.after a V) := by
  simp only [List.flatten_cons, List.flatten_nil, List.append_nil, after_append]

set_option maxHeartbeats 8000000 in
theorem sel_eq (m : (ℓ : Loc nD τ sig) → Buf (Elt F) ℓ) (c : Dev nD) :
    V m c main_v15 = Cert.ReferenceIdeal.ReadP.val_main_v15 (F := F) (m ((c.tc : Thread nD τ).loc main_arg1)) (m ((c.tc : Thread nD τ).loc main_arg2)) := by
  show StableHlo.after (List.flatten [hostOps0, hostOps0_1]) (fun b => m (c, b)) (Proc.devRef .tc main_v15) = _
  refine (congrFun (after_flatten2 hostOps0 hostOps0_1 (fun b => m (c, b))) (Proc.devRef .tc main_v15)).trans ?_
  after_results
  rfl

end Cert.KernelIdeal.Acc
end
-- ==== Proof.LibIdxSums.lean ====
/-
  Finite sums over the multi-indices of an array, as nested sums over the coordinates, in any additive commutative
  monoid (the extended reals among them: their addition is commutative and associative at the infinities too, so a
  sum may be regrouped freely there).

  * a rank-4 array with a unit second axis, [a, 1, c, d]: the sum over every index is the triple sum over the three
    long coordinates (`sum_idx4_unit1`); and the sum over the indices whose leading coordinate is a given `A` is the
    double sum over the last two (`sum_filter_lead4_unit1`) — what a sum "over every axis but the first" reads as;
  * a rank-3 array with two trailing unit axes, [a, 1, 1]: the sum over every index is the sum over the leading
    coordinate (`sum_idx3_unit12`);
  * a sum over `Fin (m * n)` cut into `m` consecutive runs of `n` (`sum_fin_mul`);
  * a sum over `2K` consecutive naturals taken two at a time (`sum_range_pairs`);
  * a running total that starts from `z + x 0` and adds `x (k+1)` at each later step is `z` plus the partial sum
    (`chain_eq_sum`).
-/
import Idealize.ShloMosaic.Lib.ValueIdx

namespace Idealize.ShloMosaic.LibIdxSums

open Idealize.ShloMosaic Idealize.ShloMosaic.ValueIdx

variable {M : Type*} [AddCommMonoid M]

/-- The indices of an [a, 1, c, d] array are the triples of its long coordinates. -/
def idxEquiv4Unit1 {a c d : Nat} : (⟨4, ![a, 1, c, d]⟩ : Shape).Idx ≃ Fin a × Fin c × Fin d where
  toFun j := (j 0, j 2, j 3)
  invFun p := ix4 p.1 (0 : Fin 1) p.2.1 p.2.2
  left_inv j := by
    funext x
    match x with
    | ⟨0, _⟩ => rfl
    | ⟨1, _⟩ => exact Fin.ext (by have := (j 1).isLt; show 0 = (j 1).val; simp at this; omega)
    | ⟨2, _⟩ => rfl
    | ⟨3, _⟩ => rfl
  right_inv p := rfl

/-- The sum over every index of an [a, 1, c, d] array is the triple sum over its three long coordinates. -/
theorem sum_idx4_unit1 {a c d : Nat} (f : (⟨4, ![a, 1, c, d]⟩ : Shape).Idx → M) :
    ∑ j, f j = ∑ A : Fin a, ∑ C : Fin c, ∑ D : Fin d, f (ix4 A (0 : Fin 1) C D) := by
  rw [← Equiv.sum_comp (idxEquiv4Unit1 (a := a) (c := c) (d := d)).symm f, Fintype.sum_prod_type]
  refine Finset.sum_congr rfl fun A _ => ?_
  rw [Fintype.sum_prod_type]
  rfl

/-- The sum over the indices of an [a, 1, c, d] array whose leading coordinate is `A`: the double sum over the last two
    coordinates. (`lead` is any function that reads the leading coordinate — a reduction's "drop the other axes".) -/
theorem sum_filter_lead4_unit1 {a c d : Nat} {ι : Type*} [DecidableEq ι] (lead : (⟨4, ![a, 1, c, d]⟩ : Shape).Idx → ι) (key : ι)
    (A : Fin a) (hlead : ∀ j, lead j = key ↔ j 0 = A) (f : (⟨4, ![a, 1, c, d]⟩ : Shape).Idx → M) :
    ∑ j ∈ Finset.univ.filter (fun j => lead j = key), f j = ∑ C : Fin c, ∑ D : Fin d, f (ix4 A (0 : Fin 1) C D) := by
  rw [Finset.sum_filter, sum_idx4_unit1]
  rw [Finset.sum_eq_single A]
  · refine Finset.sum_congr rfl fun C _ => Finset.sum_congr rfl fun D _ => ?_
    rw [if_pos ((hlead _).mpr rfl)]
  · intro A' _ hne
    refine Finset.sum_eq_zero fun C _ => Finset.sum_eq_zero fun D _ => ?_
    rw [if_neg (fun h => hne ((hlead _).mp h))]
  · intro h; exact absurd (Finset.mem_univ A) h

/-- The indices of an [a, 1, 1] array are its leading coordinates. -/
def idxEquiv3Unit12 {a : Nat} : (⟨3, ![a, 1, 1]⟩ : Shape).Idx ≃ Fin a where
  toFun j := j 0
  invFun p := ix3 p (0 : Fin 1) (0 : Fin 1)
  left_inv j := by
    funext x
    match x with
    | ⟨0, _⟩ => rfl
    | ⟨1, _⟩ => exact Fin.ext (by have := (j 1).isLt; show 0 = (j 1).val; simp at this; omega)
    | ⟨2, _⟩ => exact Fin.ext (by have := (j 2).isLt; show 0 = (j 2).val; simp at this; omega)
  right_inv p := rfl

/-- The sum over every index of an [a, 1, 1] array is the sum over its leading coordinate. -/
theorem sum_idx3_unit12 {a : Nat} (f : (⟨3, ![a, 1, 1]⟩ : Shape).Idx → M) :
    ∑ j, f j = ∑ A : Fin a, f (ix3 A (0 : Fin 1) (0 : Fin 1)) :=
  (Equiv.sum_comp (idxEquiv3Unit12 (a := a)).symm f).symm

/-- A sum over `Fin (m * n)` is the sum over `m` consecutive runs of `n`: position `n * i + j` is entry `j` of run `i`. -/
theorem sum_fin_mul (m n : Nat) (f : Fin (m * n) → M) :
    ∑ k, f k = ∑ i : Fin m, ∑ j : Fin n, f (finProdFinEquiv (i, j)) := by
  rw [← Equiv.sum_comp finProdFinEquiv f, Fintype.sum_prod_type]

/-- A sum over the first `2K` naturals, taken in consecutive pairs. -/
theorem sum_range_pairs (f : Nat → M) : ∀ K, ∑ k ∈ Finset.range K, (f (2 * k) + f (2 * k + 1)) = ∑ n ∈ Finset.range (2 * K), f n
  | 0 => by simp
  | K + 1 => by
    rw [Finset.sum_range_succ, sum_range_pairs f K, show 2 * (K + 1) = 2 * K + 1 + 1 by ring, Finset.sum_range_succ,
      Finset.sum_range_succ, add_assoc]

/-- A running total: from `z + x 0`, adding `x (k + 1)` at step `k + 1`, the total after step `n` is `z` plus the sum of
    `x 0 … x n`. -/
theorem chain_eq_sum (acc x : Nat → M) (z : M) (h0 : acc 0 = z + x 0) (hs : ∀ k, acc (k + 1) = acc k + x (k + 1)) :
    ∀ n, acc n = z + ∑ k ∈ Finset.range (n + 1), x k
  | 0 => by rw [h0, Finset.sum_range_one]
  | n + 1 => by rw [hs, chain_eq_sum acc x z h0 hs n, Finset.sum_range_succ _ (n + 1), add_assoc]

end Idealize.ShloMosaic.LibIdxSums
-- ==== Proof.KernelTotals.lean ====
import proofs.«123577_j5428838662735_1_alg».proof.Proof.KernelBlocks
import proofs.«123577_j5428838662735_1_alg».proof.Proof.KernelSel
import proofs.«123577_j5428838662735_1_alg».proof.Proof.SumBridge
import proofs.«123577_j5428838662735_1_alg».proof.Proof.LibIdxSums
import Idealize.ShloMosaic.PureOps.Ideal.Laws

/-! The kernel's two totals as sums over the million rows.  The host adds the two cores' entries; each entry is
the sum of fifty blocks' parts; each part is the sum over the block's ten thousand rows: together every row once. -/

noncomputable section
open Idealize.ShloMosaic Idealize.ShloMosaic.TcCoe Idealize.SL.Sem Idealize.ShloMosaic.ValueIdx
open Cert.RowSpec Cert.TailSpec
namespace Cert.KernelIdeal.Acc
open Cert.KernelIdeal Cert.KernelIdeal.Gen

variable (m : (ℓ : Loc nD τ sig) → Buf (Elt Ideal) ℓ)

theorem numPart_rows (c : Dev nD) (n : ℕ) (hn : n < 100) :
    numPart m c n (ix2 (0 : Fin 1) (0 : Fin 1)) = ∑ r : Fin 10000, rowK m c ⟨10000 * n + r.val, by have := r.isLt; omega⟩ := by
  have h : n < cfg0.N := by rw [show cfg0.N = 100 from N_0]; exact hn
  show (if h : n < cfg0.N then blockNum m c n h (ix2 (0 : Fin 1) (0 : Fin 1)) else 0) = _
  rw [dif_pos h, blockNum_apply]
  rfl

theorem denPart_rows (c : Dev nD) (n : ℕ) (hn : n < 100) :
    denPart m c n (ix2 (0 : Fin 1) (0 : Fin 1)) = ∑ r : Fin 10000, probeK m c ⟨10000 * n + r.val, by have := r.isLt; omega⟩ := by
  have h : n < cfg0.N := by rw [show cfg0.N = 100 from N_0]; exact hn
  show (if h : n < cfg0.N then blockDen m c n h (ix2 (0 : Fin 1) (0 : Fin 1)) else 0) = _
  rw [dif_pos h, blockDen_apply]
  rfl

/-- The total numerator: zero plus the row function over every row. -/
theorem numTotal_apply (c : Dev nD) (i : S_.Idx) :
    total (F := Ideal) (numArr m c) i = zeroF + ∑ R : Fin 1000000, rowK m c R := by
  show Ideal.hostReduceAdd reducesTo_S2x1x1_S_d0_1_2 (numArr m c) zeroF i = _
  rw [Ideal.hostReduceAdd_total reducesTo_S2x1x1_S_d0_1_2 (fun b => b.elim0) (numArr m c) _ i]
  refine congrArg (zeroF + ·) ?_
  rw [Idealize.ShloMosaic.LibIdxSums.sum_idx3_unit12]
  refine Eq.trans (Finset.sum_congr rfl fun q _ => zeroF_add _) ?_
  exact Cert.SumBridge.total_of_parts (fun n => numPart m c n (ix2 (0 : Fin 1) (0 : Fin 1))) (rowK m c) (numPart_rows m c)

theorem denTotal_apply (c : Dev nD) (i : S_.Idx) :
    total (F := Ideal) (denArr m c) i = zeroF + ∑ R : Fin 1000000, probeK m c R := by
  show Ideal.hostReduceAdd reducesTo_S2x1x1_S_d0_1_2 (denArr m c) zeroF i = _
  rw [Ideal.hostReduceAdd_total reducesTo_S2x1x1_S_d0_1_2 (fun b => b.elim0) (denArr m c) _ i]
  refine congrArg (zeroF + ·) ?_
  rw [Idealize.ShloMosaic.LibIdxSums.sum_idx3_unit12]
  refine Eq.trans (Finset.sum_congr rfl fun q _ => zeroF_add _) ?_
  exact Cert.SumBridge.total_of_parts (fun n => denPart m c n (ix2 (0 : Fin 1) (0 : Fin 1))) (probeK m c) (denPart_rows m c)

/-- The row function of the arrays as the region finds them, in terms of the program's arguments. -/
theorem rowK_eq (c : Dev nD) (R : Fin 1000000) :
    rowK m c R = rowVal (fun k => m ((c.tc : Thread nD τ).loc main_arg0) (ix2 R k)) (fun k => m ((c.tc : Thread nD τ).loc main_arg1) (ix2 R k))
      (fun k => Cert.ReferenceIdeal.ReadP.val_main_v15 (F := Ideal) (m ((c.tc : Thread nD τ).loc main_arg1)) (m ((c.tc : Thread nD τ).loc main_arg2)) (ix2 R k))
      (m ((c.tc : Thread nD τ).loc main_arg2) (ix2 R (0 : Fin 1))) := by
  unfold rowK
  rw [V_main_arg0, V_main_arg1, V_main_arg2, sel_eq]

theorem probeK_eq (c : Dev nD) (R : Fin 1000000) :
    probeK m c R = valid (m ((c.tc : Thread nD τ).loc main_arg2) (ix2 R (0 : Fin 1))) := by
  unfold probeK
  rw [V_main_arg2]

end Cert.KernelIdeal.Acc
end
-- ==== Proof.lean ====
/- The certificate of the neighbour-cluster loss kernel against its jnp reference.

   Both programs first select, for every probe row and each of its 64 neighbour slots, the cluster id of the
   neighbour (the gather of the probes' ids at the neighbour index clamped at 0, and -1 at a padding slot): the same
   host operations of the same two integer arguments.  From there each row contributes

       v(R) · ( A(R) / n_att(R)  +  B(R) / n_rep(R) ),      each quotient read as 0 when its divisor is 0,

   where v(R) is 1 when the probe is not noise, A(R) sums log(e·d + 1) over the valid slots whose id equals the
   probe slot's, B(R) sums exp(-d), weighted by 1 or by the small constant for a noise neighbour, over the valid
   slots whose id differs, and n_att, n_rep count those slots.  The result is the sum of the rows' contributions
   divided by the number of non-noise probes (again 0 when that is 0).

   The reference forms the two totals over the million rows at once.  The kernel cuts the rows into a hundred
   blocks of ten thousand, adds each block's part into a one-element accumulator that restarts at the first of
   every fifty blocks and is written out after the fiftieth, and the host adds the two entries written.  Over the
   extended reals addition is commutative and associative at the infinities too, so both arrangements are the same
   sum; no distributive or cancellation law is used, and the finiteness precondition is not needed for the value.

   The three frames are the generated frame of each kernel program and the reference's run with its result
   dropped; nothing was rewritten by the idealization, so the preservation claim is trivial. -/
import proofs.«123577_j5428838662735_1_alg».proof.Defs
import proofs.«123577_j5428838662735_1_alg».proof.Proof.Gen.Kernel
import proofs.«123577_j5428838662735_1_alg».proof.Proof.Gen.Kernel.Frame
import proofs.«123577_j5428838662735_1_alg».proof.Proof.Gen.KernelIdeal
import proofs.«123577_j5428838662735_1_alg».proof.Proof.Gen.KernelIdeal.Frame
import proofs.«123577_j5428838662735_1_alg».proof.Proof.Gen.ReferenceIdeal
import proofs.«123577_j5428838662735_1_alg».proof.Proof.Gen.Pre_finite_inputs
import proofs.«123577_j5428838662735_1_alg».proof.Proof.RefRun
import proofs.«123577_j5428838662735_1_alg».proof.Proof.RefTotals
import proofs.«123577_j5428838662735_1_alg».proof.Proof.KernelTotals
import Idealize.ShloMosaic.Adequacy
import Idealize.ShloMosaic.Init

noncomputable section

namespace Cert.Proof

open Idealize.ShloMosaic Idealize.ShloMosaic.TcCoe Idealize.SL.Sem Cert.RowSpec Cert.TailSpec

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- The two results are one value: the shared last step of totals that are the same sums over the rows. -/
theorem result_eq (m : (ℓ : Loc Cert.KernelIdeal.nD Cert.KernelIdeal.τ Cert.KernelIdeal.sig) → Buf (Elt Ideal) ℓ) (c : Dev Cert.KernelIdeal.nD) :
    Cert.ReferenceIdeal.ReadP.val_main_v77 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = lossTail (F := Ideal) Cert.KernelIdeal.Facts₀.bcast_S_S1 (Cert.KernelIdeal.Acc.total (F := Ideal) (Cert.KernelIdeal.Acc.numArr m c))
          (Cert.KernelIdeal.Acc.total (F := Ideal) (Cert.KernelIdeal.Acc.denArr m c)) := by
  rw [Cert.ReferenceIdeal.Row.tail_apply]
  have hn : Cert.ReferenceIdeal.ReadP.val_main_v70 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Acc.total (F := Ideal) (Cert.KernelIdeal.Acc.numArr m c) := funext fun i => by
    rw [Cert.ReferenceIdeal.Row.numTotal_apply]
    refine Eq.trans ?_ (Cert.KernelIdeal.Acc.numTotal_apply m c i).symm
    exact congrArg (zeroF + ·) (Finset.sum_congr rfl fun R _ => (Cert.KernelIdeal.Acc.rowK_eq m c R).symm)
  have hd : Cert.ReferenceIdeal.ReadP.val_main_v71 (F := Ideal)
        (m ((c.tc : Thread Cert.KernelIdeal.nD Cert.KernelIdeal.τ).loc Cert.KernelIdeal.main_arg2))
      = Cert.KernelIdeal.Acc.total (F := Ideal) (Cert.KernelIdeal.Acc.denArr m c) := funext fun i => by
    rw [Cert.ReferenceIdeal.Row.denTotal_apply]
    refine Eq.trans ?_ (Cert.KernelIdeal.Acc.denTotal_apply m c i).symm
    exact congrArg (zeroF + ·) (Finset.sum_congr rfl fun R _ => (Cert.KernelIdeal.Acc.probeK_eq m c R).symm)
  rw [hn, hd]

/-- At the ideal values the kernel program ends with its result at the last step of its two totals (its run, read
    through the accumulators and the output arrays), the reference with its result at the last step of its own: one
    value, since the arguments agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => lossTail (F := Ideal) Cert.KernelIdeal.Facts₀.bcast_S_S1 (Cert.KernelIdeal.Acc.total (F := Ideal) (Cert.KernelIdeal.Acc.numArr m c))
      (Cert.KernelIdeal.Acc.total (F := Ideal) (Cert.KernelIdeal.Acc.denArr m c)), ?_, ?_⟩
  · exact (θ_run Cert.KernelIdeal.defs _ _).mono (fun _ h c => ⟨(h c).2.1, (h c).1, (h c).2⟩) (Cert.KernelIdeal.Acc.run m ρ)
  · refine (θ_run Cert.ReferenceIdeal.defs _ _).mono (fun _ h c => ⟨(h c).1.trans (hagree c).1, (h c).2.1.trans ?_, (h c).2.2⟩)
      (Cert.ReferenceIdeal.ValueP.run (F := Ideal) m' ρ')
    show Cert.ReferenceIdeal.ReadP.val_main_v77 (F := Ideal) _ _ _ = _
    rw [(hagree c).1, (hagree c).2.1, (hagree c).2.2.1]
    exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
